-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x4096x2 : Shape := ⟨3, ![2, 4096, 2]⟩
abbrev S2x32768x2 : Shape := ⟨3, ![2, 32768, 2]⟩
abbrev S_ : Shape := ⟨0, ![]⟩

class Facts : Prop where
  bcast_S_S2x4096x2 : S_.BroadcastsInDim S2x4096x2 (![] : Fin 0 → Fin S2x4096x2.rank)
  reducesTo_S2x4096x2_S_d0_1_2 : S2x4096x2.ReducesTo [0, 1, 2] S_
  h_S_ : 0 < S_.numel
  bcast_S_S2x32768x2 : S_.BroadcastsInDim S2x32768x2 (![] : Fin 0 → Fin S2x32768x2.rank)
  reducesTo_S2x32768x2_S_d0_1_2 : S2x32768x2.ReducesTo [0, 1, 2] S_

variable [Facts]

def fn {F : FTy → Type} [FloatOps F] (main_arg0 : FVec F S2x4096x2 .f32) (main_arg1 : FVec F S2x32768x2 .f32) : IVec S_ 1 :=
  let main_v0 : FVec F S2x4096x2 .f32 := Host.absf main_arg0
  let main_cst : FVec F S_ .f32 := constant S_ .f32 0x7F800000#32
  let main_v1 : FVec F S2x4096x2 .f32 := broadcastInDim S2x4096x2 ![] bcast_S_S2x4096x2 main_cst
  let main_v2 : IVec S2x4096x2 1 := cmpf .olt main_v0 main_v1
  let main_c : IVec S_ 1 := constantI S_ 1 1#1
  let main_v3 : IVec S_ 1 := (fun x v => Host.reduce IntOp.andi x v reducesTo_S2x4096x2_S_d0_1_2 h_S_) main_v2 main_c
  let main_v4 : FVec F S2x32768x2 .f32 := Host.absf main_arg1
  let main_cst_0 : FVec F S_ .f32 := constant S_ .f32 0x7F800000#32
  let main_v5 : FVec F S2x32768x2 .f32 := broadcastInDim S2x32768x2 ![] bcast_S_S2x32768x2 main_cst_0
  let main_v6 : IVec S2x32768x2 1 := cmpf .olt main_v4 main_v5
  let main_c_1 : IVec S_ 1 := constantI S_ 1 1#1
  let main_v7 : IVec S_ 1 := (fun x v => Host.reduce IntOp.andi x v reducesTo_S2x32768x2_S_d0_1_2 h_S_) main_v6 main_c_1
  let main_v8 : IVec S_ 1 := andi main_v3 main_v7
  main_v8
-- ==== Kernel.lean ====
abbrev S2x4096x2 : Shape := ⟨3, ![2, 4096, 2]⟩
abbrev S2x32768x2 : Shape := ⟨3, ![2, 32768, 2]⟩
abbrev S1x4096x2 : Shape := ⟨3, ![1, 4096, 2]⟩
abbrev S4096x2 : Shape := ⟨2, ![4096, 2]⟩
abbrev S1x32768x2 : Shape := ⟨3, ![1, 32768, 2]⟩
abbrev S32768x2 : Shape := ⟨2, ![32768, 2]⟩
abbrev S2x32768 : Shape := ⟨2, ![2, 32768]⟩
abbrev S4096x1 : Shape := ⟨2, ![4096, 1]⟩
abbrev S8x1x32768 : Shape := ⟨3, ![8, 1, 32768]⟩
abbrev S512x2 : Shape := ⟨2, ![512, 2]⟩
abbrev S2x2048 : Shape := ⟨2, ![2, 2048]⟩
abbrev S512x1 : Shape := ⟨2, ![512, 1]⟩
abbrev S1x1x2048 : Shape := ⟨3, ![1, 1, 2048]⟩
abbrev S1x2048 : Shape := ⟨2, ![1, 2048]⟩
abbrev S512x2048 : Shape := ⟨2, ![512, 2048]⟩
abbrev S512 : Shape := ⟨1, ![512]⟩
abbrev S2048 : Shape := ⟨1, ![2048]⟩
abbrev S_ : Shape := ⟨0, ![]⟩
abbrev S1x32768 : Shape := ⟨2, ![1, 32768]⟩

abbrev nBuf : Space → Nat
  | .hbm => 25
  | .vmem => 9
  | .smem => 0
  | _ => 0

abbrev bufTy : (tb : Table) → Fin (tcTables nBuf tb) → BufTy
  | .hbm, ⟨0, _⟩ => ⟨S2x4096x2, .f32⟩
  | .hbm, ⟨1, _⟩ => ⟨S2x32768x2, .f32⟩
  | .hbm, ⟨2, _⟩ => ⟨S1x4096x2, .f32⟩
  | .hbm, ⟨3, _⟩ => ⟨S4096x2, .f32⟩
  | .hbm, ⟨4, _⟩ => ⟨S1x32768x2, .f32⟩
  | .hbm, ⟨5, _⟩ => ⟨S32768x2, .f32⟩
  | .hbm, ⟨6, _⟩ => ⟨S32768x2, .f32⟩
  | .hbm, ⟨7, _⟩ => ⟨S2x32768, .f32⟩
  | .hbm, ⟨8, _⟩ => ⟨S4096x1, .f32⟩
  | .hbm, ⟨9, _⟩ => ⟨S8x1x32768, .f32⟩
  | .hbm, ⟨10, _⟩ => ⟨S_, .f32⟩
  | .hbm, ⟨11, _⟩ => ⟨S1x32768, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S_, .f32⟩
  | .hbm, ⟨17, _⟩ => ⟨S1x32768, .f32⟩
  | .hbm, ⟨18, _⟩ => ⟨S1x32768, .f32⟩
  | .hbm, ⟨19, _⟩ => ⟨S1x32768, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S512x2, .f32⟩
  | .local _ .vmem, ⟨1, _⟩ => ⟨S512x2, .f32⟩
  | .local _ .vmem, ⟨2, _⟩ => ⟨S2x2048, .f32⟩
  | .local _ .vmem, ⟨3, _⟩ => ⟨S2x2048, .f32⟩
  | .local _ .vmem, ⟨4, _⟩ => ⟨S512x1, .f32⟩
  | .local _ .vmem, ⟨5, _⟩ => ⟨S512x1, .f32⟩
  | .local _ .vmem, ⟨6, _⟩ => ⟨S1x1x2048, .f32⟩
  | .local _ .vmem, ⟨7, _⟩ => ⟨S1x1x2048, .f32⟩
  | .local _ .vmem, ⟨8, _⟩ => ⟨S512x1, .f32⟩
  | _, _ => ⟨S2x4096x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6_0 : Ref sig .tc := ⟨.hbm, 8, rfl⟩
abbrev main_v6_1 : Ref sig .tc := ⟨.hbm, 9, rfl⟩
abbrev main_cst : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let arg1 : BitVec 32 := BitVec.ofNat 32 (i 1).val
  let c15_i32 : BitVec 32 := 15#32
  let v31 : BitVec 1 := Scalar.cmpi .eq arg1 c15_i32
  let v32 : BitVec 32 := Scalar.extui v31
  let c0_i32_12 : BitVec 32 := 0#32
  let v33 : BitVec 1 := Scalar.cmpi .ne v32 c0_i32_12
  v33

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S512x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  slices_S2x4096x2_S1x4096x2_0_0_0 : S2x4096x2.Slices ![0, 0, 0] S1x4096x2
  shapeCasts_S1x4096x2_S4096x2 : S1x4096x2.ShapeCasts S4096x2
  slices_S2x32768x2_S1x32768x2_1_0_0 : S2x32768x2.Slices ![1, 0, 0] S1x32768x2
  shapeCasts_S1x32768x2_S32768x2 : S1x32768x2.ShapeCasts S32768x2
  transposes_S32768x2_S2x32768_1_0 : S32768x2.Transposes [1, 0] S2x32768
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x2_S512x2_0_0 : ∀ a, (![0, 0] : Fin 2 → Nat) a + S512x2.size a ≤ S512x2.size a
  h_S512x2 : 0 < S512x2.numel
  shapeCasts_S512x2_S512x2 : S512x2.ShapeCasts S512x2
  slices_S512x2_o0_0_S512x1 : S512x2.Slices ![0, 0] S512x1
  slices_S512x2_o0_1_S512x1 : S512x2.Slices ![0, 1] S512x1
  inb_S2x2048_S2x2048_0_0 : ∀ a, (![0, 0] : Fin 2 → Nat) a + S2x2048.size a ≤ S2x2048.size a
  h_S2x2048 : 0 < S2x2048.numel
  shapeCasts_S2x2048_S2x2048 : S2x2048.ShapeCasts S2x2048
  slices_S2x2048_o0_0_S1x2048 : S2x2048.Slices ![0, 0] S1x2048
  slices_S2x2048_o1_0_S1x2048 : S2x2048.Slices ![1, 0] S1x2048
  broadcasts_S512x1_S512x2048 : S512x1.Broadcasts S512x2048
  broadcasts_S1x2048_S512x2048 : S1x2048.Broadcasts S512x2048
  reduces_S512x2048_S512 : S512x2048.Reduces [1] S512
  shapeCasts_S512_S512x1 : S512.ShapeCasts S512x1
  reduces_S512x2048_S2048 : S512x2048.Reduces [0] S2048
  shapeCasts_S2048_S1x2048 : S2048.ShapeCasts S1x2048
  shapeCasts_S1x2048_S1x1x2048 : S1x2048.ShapeCasts S1x1x2048
  inb_S1x1x2048_S1x1x2048_0_0_0 : ∀ a, (![0, 0, 0] : Fin 3 → Nat) a + S1x1x2048.size a ≤ S1x1x2048.size a
  h_S1x1x2048 : 0 < S1x1x2048.numel
  reducesTo_S8x1x32768_S1x32768_d0 : S8x1x32768.ReducesTo [0] S1x32768
  h_S_ : 0 < S_.numel
  bcast_S_S4096x1 : S_.BroadcastsInDim S4096x1 (![] : Fin 0 → Fin S4096x1.rank)
  bcast_S_S1x32768 : S_.BroadcastsInDim S1x32768 (![] : Fin 0 → Fin S1x32768.rank)
  reducesTo_S4096x1_S_d0_1 : S4096x1.ReducesTo [0, 1] S_
  reducesTo_S1x32768_S_d0_1 : S1x32768.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2.size a ≤ S4096x2.size a
  hwx0_0 : ∀ i : grid0.Coords, EltTy.bits .f32 = 32 ∨ (Rect.block (s := S4096x2) S512x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x2048.size a ≤ S2x32768.size a
  hwx0_1 : ∀ i : grid0.Coords, EltTy.bits .f32 = 32 ∨ (Rect.block (s := S2x32768) S2x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .f32 = 32 ∨ (Rect.block (s := S4096x1) S512x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S8x1x32768.size a
  hwx0_3 : ∀ i : grid0.Coords, EltTy.bits .f32 = 32 ∨ (Rect.block (s := S8x1x32768) S1x1x2048.size (cc0_transform_3 i) (hinb0_3 i)).WholeWords (EltTy.packing .f32)

variable [Facts₀]

abbrev win0_0 : Pipeline.Window sig grid0 :=
  Pipeline.Window.ofSpec (Memref.whole main_v1) S512x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6_0) S512x1.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6_1) S1x1x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun i => !(k0_cond2 i == 1#1) | 3 => fun _ => false | ⟨_ + 4, h⟩ => absurd h (Nat.not_lt.2 (Nat.le_add_left _ _))

class Facts : Prop extends Facts₀ where

variable [Facts]
-- ==== ReferenceIdeal.lean ====
abbrev S2x4096x2 : Shape := ⟨3, ![2, 4096, 2]⟩
abbrev S2x32768x2 : Shape := ⟨3, ![2, 32768, 2]⟩
abbrev S1x4096x2 : Shape := ⟨3, ![1, 4096, 2]⟩
abbrev S4096x2 : Shape := ⟨2, ![4096, 2]⟩
abbrev S1x32768x2 : Shape := ⟨3, ![1, 32768, 2]⟩
abbrev S32768x2 : Shape := ⟨2, ![32768, 2]⟩
abbrev S_ : Shape := ⟨0, ![]⟩
abbrev S4096 : Shape := ⟨1, ![4096]⟩
abbrev S4096x1 : Shape := ⟨2, ![4096, 1]⟩
abbrev S32768 : Shape := ⟨1, ![32768]⟩
abbrev S1x32768 : Shape := ⟨2, ![1, 32768]⟩
abbrev S4096x32768 : Shape := ⟨2, ![4096, 32768]⟩
abbrev S2x32768 : Shape := ⟨2, ![2, 32768]⟩

abbrev nBuf : Space → Nat
  | .hbm => 37
  | .vmem => 0
  | .smem => 0
  | _ => 0

abbrev bufTy : (tb : Table) → Fin (tcTables nBuf tb) → BufTy
  | .hbm, ⟨0, _⟩ => ⟨S2x4096x2, .f32⟩
  | .hbm, ⟨1, _⟩ => ⟨S2x32768x2, .f32⟩
  | .hbm, ⟨2, _⟩ => ⟨S1x4096x2, .f32⟩
  | .hbm, ⟨3, _⟩ => ⟨S4096x2, .f32⟩
  | .hbm, ⟨4, _⟩ => ⟨S1x32768x2, .f32⟩
  | .hbm, ⟨5, _⟩ => ⟨S32768x2, .f32⟩
  | .hbm, ⟨6, _⟩ => ⟨S32768x2, .f32⟩
  | .hbm, ⟨7, _⟩ => ⟨S4096x2, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S32768x2, .f32⟩
  | .hbm, ⟨12, _⟩ => ⟨S_, .f32⟩
  | .hbm, ⟨13, _⟩ => ⟨S32768, .f32⟩
  | .hbm, ⟨14, _⟩ => ⟨S1x32768, .f32⟩
  | .hbm, ⟨15, _⟩ => ⟨S4096x32768, .f32⟩
  | .hbm, ⟨16, _⟩ => ⟨S4096x32768, .f32⟩
  | .hbm, ⟨17, _⟩ => ⟨S4096x32768, .f32⟩
  | .hbm, ⟨18, _⟩ => ⟨S2x32768, .f32⟩
  | .hbm, ⟨19, _⟩ => ⟨S4096x32768, .f32⟩
  | .hbm, ⟨20, _⟩ => ⟨S_, .f32⟩
  | .hbm, ⟨21, _⟩ => ⟨S4096x32768, .f32⟩
  | .hbm, ⟨22, _⟩ => ⟨S4096x32768, .f32⟩
  | .hbm, ⟨23, _⟩ => ⟨S4096x32768, .f32⟩
  | .hbm, ⟨24, _⟩ => ⟨S_, .f32⟩
  | .hbm, ⟨25, _⟩ => ⟨S4096x32768, .f32⟩
  | .hbm, ⟨26, _⟩ => ⟨S4096x32768, .f32⟩
  | .hbm, ⟨27, _⟩ => ⟨S4096x32768, .f32⟩
  | .hbm, ⟨28, _⟩ => ⟨S_, .f32⟩
  | .hbm, ⟨29, _⟩ => ⟨S4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S32768, .f32⟩
  | .hbm, ⟨34, _⟩ => ⟨S_, .f32⟩
  | .hbm, ⟨35, _⟩ => ⟨S_, .f32⟩
  | .hbm, ⟨36, _⟩ => ⟨S_, .f32⟩
  | _, _ => ⟨S2x4096x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_3 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_cst_5 : Ref sig .tc := ⟨.hbm, 32, rfl⟩
abbrev main_v24 : Ref sig .tc := ⟨.hbm, 33, rfl⟩
abbrev main_cst_6 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  slices_S2x4096x2_S1x4096x2_0_0_0 : S2x4096x2.Slices ![0, 0, 0] S1x4096x2
  shapeCasts_S1x4096x2_S4096x2 : S1x4096x2.ShapeCasts S4096x2
  slices_S2x32768x2_S1x32768x2_1_0_0 : S2x32768x2.Slices ![1, 0, 0] S1x32768x2
  shapeCasts_S1x32768x2_S32768x2 : S1x32768x2.ShapeCasts S32768x2
  reducesTo_S4096x2_S4096_d1 : S4096x2.ReducesTo [1] S4096
  h_S_ : 0 < S_.numel
  bcast_S4096_S4096x1_0 : S4096.BroadcastsInDim S4096x1 (![0] : Fin 1 → Fin S4096x1.rank)
  reducesTo_S32768x2_S32768_d1 : S32768x2.ReducesTo [1] S32768
  bcast_S32768_S1x32768_1 : S32768.BroadcastsInDim S1x32768 (![1] : Fin 1 → Fin S1x32768.rank)
  bcast_S4096x1_S4096x32768_0_1 : S4096x1.BroadcastsInDim S4096x32768 (![0, 1] : Fin 2 → Fin S4096x32768.rank)
  bcast_S1x32768_S4096x32768_0_1 : S1x32768.BroadcastsInDim S4096x32768 (![0, 1] : Fin 2 → Fin S4096x32768.rank)
  transposes_S32768x2_S2x32768_1_0 : S32768x2.Transposes [1, 0] S2x32768
  bcast_S_S4096x32768 : S_.BroadcastsInDim S4096x32768 (![] : Fin 0 → Fin S4096x32768.rank)
  reducesTo_S4096x32768_S4096_d1 : S4096x32768.ReducesTo [1] S4096
  reducesTo_S4096_S_d0 : S4096.ReducesTo [0] S_
  reducesTo_S4096x32768_S32768_d0 : S4096x32768.ReducesTo [0] S32768
  reducesTo_S32768_S_d0 : S32768.ReducesTo [0] S_
  dot_S4096x2_S2x32768_S4096x32768_1_0_0_1_n_n_wf : DotDims.WF S4096x2 S2x32768 S4096x32768 [1] [0] [0] [1] [] []

variable [Facts₀]

def dot_S4096x2_S2x32768_S4096x32768_1_0_0_1_n_n : DotDims S4096x2 S2x32768 S4096x32768 where
  lhsContracting := [1]
  rhsContracting := [0]
  lhsNonContracting := [0]
  rhsNonContracting := [1]
  lhsBatch := []
  rhsBatch := []
  wf := dot_S4096x2_S2x32768_S4096x32768_1_0_0_1_n_n_wf

class Facts : Prop extends Facts₀ where

variable [Facts]
-- ==== Proof.Pieces.lean ====
/-
  What one grid point leaves behind, as values.  Every store of the body writes a whole buffer, so what a buffer
  holds afterwards is the last value stored: the running row minimum is the row minima of the tile folded into
  what it held before (+inf at the first point of a sweep), the column-minimum block is the tile's column minima,
  and at the last point of a sweep the row-minimum output block is the finished running row minimum.
-/
import proofs.«141072_j2714419331831_2_alg».proof.Proof.Gen.KernelIdeal.Frame
import Idealize.ShloMosaic.Lib.Pipeline.Value
import Idealize.ShloMosaic.Lib.Tactic

noncomputable section

namespace Cert.Chamfer.Kernel

open Idealize.ShloMosaic Idealize.ShloMosaic.TcCoe Idealize.SL.Sem Idealize.ShloMosaic.Tactic
open Idealize.ShloMosaic.Pipeline (Dat)
open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-! ### First point of a sweep: the running row minimum is reset to +inf, then the tile is folded in -/

theorem sout_A (c : Dev nD) (i : grid0.Coords) (a2 : Memref sig .tc .vmem S512x2 .f32) (h2 : a2.IsWhole) (a3 : Memref sig .tc .vmem S2x2048 .f32) (h3 : a3.IsWhole) (a4 : Memref sig .tc .vmem S512x1 .f32) (h4 : a4.IsWhole) (a5 : Memref sig .tc .vmem S1x1x2048 .f32) (h5 : a5.IsWhole) (a6 : Memref sig .tc .vmem S512x1 .f32) (h6 : a6.IsWhole) (hc0 : cond0_0 i) (hc1 : ¬cond0_1 i)
    (x0 : Vec F S512x2 .f32) (x1 : Vec F S2x2048 .f32) :
    sout0_A_0 c i a2 h2 a3 h3 a4 h4 a5 h5 a6 h6 hc0 hc1 x0 x1 = k0_pay3 x0 x1 (k0_pay1 (F := F)) := by
  unfold sout0_A_0
  rw [View.read_writes_eq_canon _ _ _ (scover0_A_0 c i a2 h2 a3 h3 a4 h4 a5 h5 a6 h6 hc0 hc1 x0 x1)]
  unfold kernelRun0_A
  dsimp only
  sl_unfold_words
  rw [View.canon_cons_unit_zero (S := S512x1) hz2, View.readCov_unit_zero (S := S512x1) _ hz2]
  simp only [View.readAt_eq_ld, h2.read_unread, h3.read_unread, h6.read_unread, View.ld_unit_zero (S := S512x2) hz2, View.ld_unit_zero (S := S2x2048) hz2, View.ld_unit_zero (S := S512x1) hz2]

theorem out_A_3 (c : Dev nD) (i : grid0.Coords) (a2 : Memref sig .tc .vmem S512x2 .f32) (h2 : a2.IsWhole) (a3 : Memref sig .tc .vmem S2x2048 .f32) (h3 : a3.IsWhole) (a4 : Memref sig .tc .vmem S512x1 .f32) (h4 : a4.IsWhole) (a5 : Memref sig .tc .vmem S1x1x2048 .f32) (h5 : a5.IsWhole) (a6 : Memref sig .tc .vmem S512x1 .f32) (h6 : a6.IsWhole) (hc0 : cond0_0 i) (hc1 : ¬cond0_1 i)
    (x0 : Vec F S512x2 .f32) (x1 : Vec F S2x2048 .f32) :
    out0_A_3 c i a2 h2 a3 h3 a4 h4 a5 h5 a6 h6 hc0 hc1 x0 x1 = k0_pay4 x0 x1 := by
  unfold out0_A_3
  rw [View.read_writes_eq_canon _ _ _ (cover0_A_3 c i a2 h2 a3 h3 a4 h4 a5 h5 a6 h6 hc0 hc1 x0 x1)]
  unfold kernelRun0_A
  dsimp only
  sl_unfold_words
  rw [View.canon_unit_zero hz3]
  simp only [View.readAt_eq_ld, h2.read_unread, h3.read_unread, h6.read_unread, View.ld_unit_zero (S := S512x2) hz2, View.ld_unit_zero (S := S2x2048) hz2, View.ld_unit_zero (S := S512x1) hz2]

/-! ### Interior point of a sweep: the tile is folded into the running row minimum -/

theorem sout_B (c : Dev nD) (i : grid0.Coords) (a2 : Memref sig .tc .vmem S512x2 .f32) (h2 : a2.IsWhole) (a3 : Memref sig .tc .vmem S2x2048 .f32) (h3 : a3.IsWhole) (a4 : Memref sig .tc .vmem S512x1 .f32) (h4 : a4.IsWhole) (a5 : Memref sig .tc .vmem S1x1x2048 .f32) (h5 : a5.IsWhole) (a6 : Memref sig .tc .vmem S512x1 .f32) (h6 : a6.IsWhole) (hc0 : ¬cond0_0 i) (hc1 : ¬cond0_1 i)
    (x0 : Vec F S512x2 .f32) (x1 : Vec F S2x2048 .f32) (xs0 : Vec F S512x1 .f32) :
    sout0_B_0 c i a2 h2 a3 h3 a4 h4 a5 h5 a6 h6 hc0 hc1 x0 x1 xs0 = k0_pay3 x0 x1 xs0 := by
  unfold sout0_B_0
  rw [View.read_writes_eq_canon _ _ _ (scover0_B_0 c i a2 h2 a3 h3 a4 h4 a5 h5 a6 h6 hc0 hc1 x0 x1 xs0)]
  unfold kernelRun0_B
  dsimp only
  sl_unfold_words
  rw [View.canon_unit_zero hz2]
  simp only [View.readAt_eq_ld, h2.read_unread, h3.read_unread, h6.read_unread, View.ld_unit_zero (S := S512x2) hz2, View.ld_unit_zero (S := S2x2048) hz2, View.ld_unit_zero (S := S512x1) hz2]

theorem out_B_3 (c : Dev nD) (i : grid0.Coords) (a2 : Memref sig .tc .vmem S512x2 .f32) (h2 : a2.IsWhole) (a3 : Memref sig .tc .vmem S2x2048 .f32) (h3 : a3.IsWhole) (a4 : Memref sig .tc .vmem S512x1 .f32) (h4 : a4.IsWhole) (a5 : Memref sig .tc .vmem S1x1x2048 .f32) (h5 : a5.IsWhole) (a6 : Memref sig .tc .vmem S512x1 .f32) (h6 : a6.IsWhole) (hc0 : ¬cond0_0 i) (hc1 : ¬cond0_1 i)
    (x0 : Vec F S512x2 .f32) (x1 : Vec F S2x2048 .f32) (xs0 : Vec F S512x1 .f32) :
    out0_B_3 c i a2 h2 a3 h3 a4 h4 a5 h5 a6 h6 hc0 hc1 x0 x1 xs0 = k0_pay4 x0 x1 := by
  unfold out0_B_3
  rw [View.read_writes_eq_canon _ _ _ (cover0_B_3 c i a2 h2 a3 h3 a4 h4 a5 h5 a6 h6 hc0 hc1 x0 x1 xs0)]
  unfold kernelRun0_B
  dsimp only
  sl_unfold_words
  rw [View.canon_unit_zero hz3]
  simp only [View.readAt_eq_ld, h2.read_unread, h3.read_unread, h6.read_unread, View.ld_unit_zero (S := S512x2) hz2, View.ld_unit_zero (S := S2x2048) hz2, View.ld_unit_zero (S := S512x1) hz2]

/-! ### Last point of a sweep: as an interior point, and the finished row minimum is copied out -/

theorem sout_C (c : Dev nD) (i : grid0.Coords) (a2 : Memref sig .tc .vmem S512x2 .f32) (h2 : a2.IsWhole) (a3 : Memref sig .tc .vmem S2x2048 .f32) (h3 : a3.IsWhole) (a4 : Memref sig .tc .vmem S512x1 .f32) (h4 : a4.IsWhole) (a5 : Memref sig .tc .vmem S1x1x2048 .f32) (h5 : a5.IsWhole) (a6 : Memref sig .tc .vmem S512x1 .f32) (h6 : a6.IsWhole) (hc0 : ¬cond0_0 i) (hc1 : cond0_1 i)
    (x0 : Vec F S512x2 .f32) (x1 : Vec F S2x2048 .f32) (xs0 : Vec F S512x1 .f32) :
    sout0_C_0 c i a2 h2 a3 h3 a4 h4 a5 h5 a6 h6 hc0 hc1 x0 x1 xs0 = k0_pay3 x0 x1 xs0 := by
  unfold sout0_C_0
  rw [View.read_writes_eq_canon _ _ _ (scover0_C_0 c i a2 h2 a3 h3 a4 h4 a5 h5 a6 h6 hc0 hc1 x0 x1 xs0)]
  unfold kernelRun0_C
  dsimp only
  sl_unfold_words
  rw [View.canon_unit_zero hz2]
  simp only [View.readAt_eq_ld, h2.read_unread, h3.read_unread, h6.read_unread, View.ld_unit_zero (S := S512x2) hz2, View.ld_unit_zero (S := S2x2048) hz2, View.ld_unit_zero (S := S512x1) hz2]

theorem out_C_3 (c : Dev nD) (i : grid0.Coords) (a2 : Memref sig .tc .vmem S512x2 .f32) (h2 : a2.IsWhole) (a3 : Memref sig .tc .vmem S2x2048 .f32) (h3 : a3.IsWhole) (a4 : Memref sig .tc .vmem S512x1 .f32) (h4 : a4.IsWhole) (a5 : Memref sig .tc .vmem S1x1x2048 .f32) (h5 : a5.IsWhole) (a6 : Memref sig .tc .vmem S512x1 .f32) (h6 : a6.IsWhole) (hc0 : ¬cond0_0 i) (hc1 : cond0_1 i)
    (x0 : Vec F S512x2 .f32) (x1 : Vec F S2x2048 .f32) (xs0 : Vec F S512x1 .f32) :
    out0_C_3 c i a2 h2 a3 h3 a4 h4 a5 h5 a6 h6 hc0 hc1 x0 x1 xs0 = k0_pay4 x0 x1 := by
  unfold out0_C_3
  rw [View.read_writes_eq_canon _ _ _ (cover0_C_3 c i a2 h2 a3 h3 a4 h4 a5 h5 a6 h6 hc0 hc1 x0 x1 xs0)]
  unfold kernelRun0_C
  dsimp only
  sl_unfold_words
  rw [View.canon_unit_zero hz3]
  simp only [View.readAt_eq_ld, h2.read_unread, h3.read_unread, h6.read_unread, View.ld_unit_zero (S := S512x2) hz2, View.ld_unit_zero (S := S2x2048) hz2, View.ld_unit_zero (S := S512x1) hz2]

theorem out_C_2 (c : Dev nD) (i : grid0.Coords) (a2 : Memref sig .tc .vmem S512x2 .f32) (h2 : a2.IsWhole) (a3 : Memref sig .tc .vmem S2x2048 .f32) (h3 : a3.IsWhole) (a4 : Memref sig .tc .vmem S512x1 .f32) (h4 : a4.IsWhole) (a5 : Memref sig .tc .vmem S1x1x2048 .f32) (h5 : a5.IsWhole) (a6 : Memref sig .tc .vmem S512x1 .f32) (h6 : a6.IsWhole) (hc0 : ¬cond0_0 i) (hc1 : cond0_1 i)
    (x0 : Vec F S512x2 .f32) (x1 : Vec F S2x2048 .f32) (xs0 : Vec F S512x1 .f32) :
    out0_C_2 c i a2 h2 a3 h3 a4 h4 a5 h5 a6 h6 hc0 hc1 x0 x1 xs0 = k0_pay3 x0 x1 xs0 := by
  unfold out0_C_2
  rw [View.read_writes_eq_canon _ _ _ (cover0_C_2 c i a2 h2 a3 h3 a4 h4 a5 h5 a6 h6 hc0 hc1 x0 x1 xs0)]
  unfold kernelRun0_C
  dsimp only
  sl_unfold_words
  rw [View.canon_unit_zero hz2, View.readCov_unit_zero (S := S512x1) _ hz2]
  simp only [View.readAt_eq_ld, h2.read_unread, h3.read_unread, h6.read_unread, View.ld_unit_zero (S := S512x2) hz2, View.ld_unit_zero (S := S2x2048) hz2, View.ld_unit_zero (S := S512x1) hz2]

end Cert.Chamfer.Kernel

end
-- ==== Proof.LibColumn.lean ====
/-
  Column layouts read at an index: a length-`a` vector as an `[a, 1]` column and back, and a column broadcast
  along the second axis. Row-major position of `(i, 0)` in `[a, 1]` is `i · 1 + 0 = i`, the position of `i` in `[a]`;
  a broadcast repeats the operand along each axis where the operand's extent is one.
-/
import Idealize.ShloMosaic.Lib.Pipeline.Value
import Idealize.ShloMosaic.Lib.ValueIdx

noncomputable section

namespace Cert.Column

open Idealize.ShloMosaic Idealize.ShloMosaic.ValueIdx

variable {α : Type}

/-- An `[a]` array cast to a column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A column `[a, 1]` broadcast to `[a, b]` reads, at `(p, c)`, the operand's row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibMinFold.lean ====
/-
  A one-axis minimum reduction of a vector of extended reals, read at a result index: the fold of `min` from
  the accumulator's value over the reduced axis's coordinates, the result index with the coordinate inserted.
-/
import Idealize.ShloMosaic.PureOps.Ideal.Laws
import Idealize.ShloMosaic.PureOps.Reduce

noncomputable section

namespace Cert.MinFold

open Idealize.ShloMosaic

/-- A `multi_reduction <minimumf>` over one axis `a`, at the result index `j`: `min` folded from the
    accumulator's value over `k ↦ src (j with k inserted on axis a)`. -/
theorem multiReduction_minimumf_single {s t : Shape} {a : Fin s.rank} {φ : FTy} (src : FVec Ideal s φ) (acc : BitVec φ.bits)
    (h : s.Reduces [a] t) (hφ : FKind.Formats φ) (hacc : acc = FKind.minimumf.neutral φ hφ) (j : t.Idx) :
    multiReduction .minimumf [a] t src acc h hφ hacc j
      = (Finset.univ : Finset (Fin (s.size a))).fold min (FloatOps.ofBits φ acc) (src ∘ h.lift j) := by
  rw [multiReduction_minimumf_eq_fold]; exact h.fold_filter_drop_single _ _ src j

end Cert.MinFold

end
-- ==== Proof.Payload.lean ====
/-
  What the kernel body computes from one block of 512 points of the first set (`x0`, rows = points, columns =
  the two coordinates) and one block of 2048 points of the second set (`x1`, rows = coordinates, columns =
  points): the tile of squared distances, its row minima folded into the running row minimum, and its column minima.
-/
import proofs.«141072_j2714419331831_2_alg».proof.Proof.Gen.KernelIdeal.Skeleton
import proofs.«141072_j2714419331831_2_alg».proof.Proof.LibColumn
import proofs.«141072_j2714419331831_2_alg».proof.Proof.LibMinFold
import Idealize.ShloMosaic.Lib.Pipeline.Value
import Idealize.ShloMosaic.Lib.ValueIdx
import Idealize.ShloMosaic.Lib.ValueLayout
import Idealize.ShloMosaic.PureOps.Ideal.Laws

noncomputable section

namespace Cert.Chamfer.Kernel

open Idealize.ShloMosaic Idealize.ShloMosaic.ValueIdx Cert.KernelIdeal Cert.KernelIdeal.Gen

variable [Cert.KernelIdeal.Facts]

/-- Entry `(r, l)` of the tile: squared distance of the block's point `r` from the other block's point `l`. -/
def tile (x0 : FVec Ideal S512x2 .f32) (x1 : FVec Ideal S2x2048 .f32) (r : Fin 512) (l : Fin 2048) : EReal :=
  (x0 (ix2 r (0 : Fin 2)) - x1 (ix2 (0 : Fin 2) l)) * (x0 (ix2 r (0 : Fin 2)) - x1 (ix2 (0 : Fin 2) l))
    + (x0 (ix2 r (1 : Fin 2)) - x1 (ix2 (1 : Fin 2) l)) * (x0 (ix2 r (1 : Fin 2)) - x1 (ix2 (1 : Fin 2) l))

/-- Column `k` of the point block, repeated along the lanes: entry `(r, l)` is coordinate `k` of point `r`. -/
theorem col_bcast (v : FVec Ideal S512x2 .f32) (off : Fin 2 → ℕ) (k : Fin 2) (hoff : off = ![0, k.val])
    (hs : S512x2.Slices off S512x1) (hb : S512x1.Broadcasts S512x2048) (r : Fin 512) (l : Fin 2048) :
    broadcastTo S512x2048 (extractStridedSlice S512x1 off v hs) hb (ix2 r l) = v (ix2 r k) := by
  subst hoff
  refine (Cert.Column.broadcastTo_a1_ab_apply _ hb r l).trans ?_
  exact slice2_axis1_apply k.val v hs r (0 : Fin 1) k (by show k.val = k.val + 0; rfl)

/-- Row `k` of the other block, repeated down the sublanes: entry `(r, l)` is coordinate `k` of point `l`. -/
theorem row_bcast (v : FVec Ideal S2x2048 .f32) (off : Fin 2 → ℕ) (k : Fin 2) (hoff : off = ![k.val, 0])
    (hs : S2x2048.Slices off S1x2048) (hb : S1x2048.Broadcasts S512x2048) (r : Fin 512) (l : Fin 2048) :
    broadcastTo S512x2048 (extractStridedSlice S1x2048 off v hs) hb (ix2 r l) = v (ix2 k l) := by
  subst hoff
  refine (broadcastTo_1b_ab_apply _ hb r l).trans ?_
  exact slice2_axis0_apply k.val v hs (0 : Fin 1) l k (by show k.val = k.val + 0; rfl)

/-- The squared-distance tile, entry by entry. -/
theorem pay2_apply (x0 : FVec Ideal S512x2 .f32) (x1 : FVec Ideal S2x2048 .f32) (r : Fin 512) (l : Fin 2048) :
    k0_pay2 (F := Ideal) x0 x1 (ix2 r l) = tile x0 x1 r l := by
  unfold k0_pay2 tile
  simp only [shapeCast_self, addf_apply, mulf_apply, subf_apply,
    col_bcast x0 ![0, 0] 0 rfl, col_bcast x0 ![0, 1] 1 rfl, row_bcast x1 ![0, 0] 0 rfl, row_bcast x1 ![1, 0] 1 rfl]

/-- The word the running minimum is reset to, and every minimum reduction starts from. -/
abbrev infWord : EReal := Ideal.ofBits .f32 0x7F800000#32

/-- The reset value of the running row minimum is the +inf word everywhere. -/
theorem pay1_apply (j : S512x1.Idx) : k0_pay1 (F := Ideal) j = infWord := by
  unfold k0_pay1
  simp only [shapeCast_self, broadcast_apply]
  rfl

/-- Inserting lane `l` into the row index `r` gives `(r, l)`. -/
theorem lift_row (r : Fin 512) (l : Fin 2048) : reduces_S512x2048_S512.lift (ix1 r) l = ix2 r l :=
  funext fun a => Fin.ext (by match a with | ⟨0, _⟩ => rfl | ⟨1, _⟩ => rfl)

/-- Inserting sublane `r` into the lane index `l` gives `(r, l)`. -/
theorem lift_col (l : Fin 2048) (r : Fin 512) : reduces_S512x2048_S2048.lift (ix1 l) r = ix2 r l :=
  funext fun a => Fin.ext (by match a with | ⟨0, _⟩ => rfl | ⟨1, _⟩ => rfl)

/-- The running row minimum after the tile: what it held, and the least entry of row `r` of the tile. -/
theorem pay3_apply (x0 : FVec Ideal S512x2 .f32) (x1 : FVec Ideal S2x2048 .f32) (xs : FVec Ideal S512x1 .f32) (r : Fin 512) (u : Fin 1) :
    k0_pay3 (F := Ideal) x0 x1 xs (ix2 r u)
      = min (xs (ix2 r u)) ((Finset.univ : Finset (Fin 2048)).fold min infWord (fun l => tile x0 x1 r l)) := by
  unfold k0_pay3
  simp only [shapeCast_self, minimumf_apply]
  refine congrArg (min (xs (ix2 r u))) ?_
  refine (Cert.Column.shapeCast_a_a1_apply _ _ r u).trans ?_
  refine (Cert.MinFold.multiReduction_minimumf_single (k0_pay2 x0 x1) _ reduces_S512x2048_S512 _ _ (ix1 r)).trans ?_
  show (Finset.univ : Finset (Fin 2048)).fold min infWord (fun l => k0_pay2 (F := Ideal) x0 x1 (reduces_S512x2048_S512.lift (ix1 r) l)) = _
  refine congrArg (fun f => Finset.fold min infWord f Finset.univ) (funext fun l => ?_)
  exact (congrArg (k0_pay2 (F := Ideal) x0 x1) (lift_row r l)).trans (pay2_apply x0 x1 r l)

/-- The column-minimum block: the least entry of column `l` of the tile. -/
theorem pay4_apply (x0 : FVec Ideal S512x2 .f32) (x1 : FVec Ideal S2x2048 .f32) (u v : Fin 1) (l : Fin 2048) :
    k0_pay4 (F := Ideal) x0 x1 (ix3 u v l)
      = (Finset.univ : Finset (Fin 512)).fold min infWord (fun r => tile x0 x1 r l) := by
  unfold k0_pay4
  refine (shapeCast_ab_1ab_apply _ _ u v l).trans ?_
  refine (shapeCast_a_1a_apply _ _ v l).trans ?_
  refine (Cert.MinFold.multiReduction_minimumf_single (k0_pay2 x0 x1) _ reduces_S512x2048_S2048 _ _ (ix1 l)).trans ?_
  show (Finset.univ : Finset (Fin 512)).fold min infWord (fun r => k0_pay2 (F := Ideal) x0 x1 (reduces_S512x2048_S2048.lift (ix1 l) r)) = _
  refine congrArg (fun f => Finset.fold min infWord f Finset.univ) (funext fun r => ?_)
  exact (congrArg (k0_pay2 (F := Ideal) x0 x1) (lift_col l r)).trans (pay2_apply x0 x1 r l)

end Cert.Chamfer.Kernel

end
-- ==== Proof.Spec.lean ====
/-
  The chamfer distance between two planar point sets, as one function of the two argument arrays over the
  extended reals.  Point `n` of the first set is row `n` of slab 0 of the first array; point `m` of the
  second set is row `32767 - m` of slab 1 of the second array (the second set is read back to front).
  `d2 n m` is the squared distance written with differences, `d2x n m` the same number written by the
  expansion |a|² + |b|² − 2 a·b.  `root x = √(max x ε)` is monotone, so it commutes with minima; the chamfer
  distance is the sum over the first set of the rooted row minima plus the sum over the second set of the
  rooted column minima.
-/
import Idealize.ShloMosaic.PureOps.Ideal
import Idealize.ShloMosaic.PureOps.Ideal.Laws
import Idealize.ShloMosaic.Lib.ValueIdx

noncomputable section

namespace Cert.Chamfer

open Idealize.ShloMosaic Idealize.ShloMosaic.ValueIdx

/-- Shape of the first argument: two slabs of 4096 planar points. -/
abbrev SA : Shape := ⟨3, ![2, 4096, 2]⟩
/-- Shape of the second argument: two slabs of 32768 planar points. -/
abbrev SB : Shape := ⟨3, ![2, 32768, 2]⟩

/-- Coordinate `k` of point `n` of the first set (slab 0 of the first array). -/
def pt (A : SA.Idx → EReal) (n k : ℕ) : EReal :=
  A (ix3 (0 : Fin 2) (⟨n % 4096, Nat.mod_lt _ (by decide)⟩ : Fin 4096) (⟨k % 2, Nat.mod_lt _ (by decide)⟩ : Fin 2))

/-- Coordinate `k` of point `m` of the second set: slab 1 of the second array, rows taken last to first. -/
def sk (B : SB.Idx → EReal) (m k : ℕ) : EReal :=
  B (ix3 (1 : Fin 2) (⟨32767 - m % 32768, by omega⟩ : Fin 32768) (⟨k % 2, Nat.mod_lt _ (by decide)⟩ : Fin 2))

/-- The floor under the squared distances before the root is taken. -/
def eps : EReal := Ideal.ofBits .f32 0x2B8CBCCC#32

/-- `√(max x ε)`. -/
def root (x : EReal) : EReal := Ideal.sqrt (max x eps)

/-- Squared distance of point `n` of the first set from point `m` of the second, by differences. -/
def d2 (A : SA.Idx → EReal) (B : SB.Idx → EReal) (n m : ℕ) : EReal :=
  (pt A n 0 - sk B m 0) * (pt A n 0 - sk B m 0) + (pt A n 1 - sk B m 1) * (pt A n 1 - sk B m 1)

/-- The same squared distance by the expansion |a|² + |b|² − 2 a·b, each sum started from zero. -/
def d2x (A : SA.Idx → EReal) (B : SB.Idx → EReal) (n m : ℕ) : EReal :=
  ((0 + (pt A n 0 * pt A n 0 + pt A n 1 * pt A n 1)) + (0 + (sk B m 0 * sk B m 0 + sk B m 1 * sk B m 1)))
    - ((2 : ℝ) : EReal) * (pt A n 0 * sk B m 0 + pt A n 1 * sk B m 1)

/-- Least squared distance from point `n` of the first set to the second set. -/
def rowMin (A : SA.Idx → EReal) (B : SB.Idx → EReal) (n : ℕ) : EReal :=
  (Finset.range 32768).inf (fun m => d2 A B n m)

/-- Least squared distance from point `m` of the second set to the first set. -/
def colMin (A : SA.Idx → EReal) (B : SB.Idx → EReal) (m : ℕ) : EReal :=
  (Finset.range 4096).inf (fun n => d2 A B n m)

/-- The chamfer distance: rooted row minima summed over the first set plus rooted column minima summed over
    the second, each sum started from zero. -/
def chamfer (A : SA.Idx → EReal) (B : SB.Idx → EReal) : EReal :=
  (0 + ∑ n : Fin 4096, root (rowMin A B n.val)) + (0 + ∑ m : Fin 32768, root (colMin A B m.val))

/-- The chamfer distance as a tiled sweep produces it: the row minima whole, each column minimum taken first
    inside each of eight bands of 512 points of the first set and then across the bands. -/
def chamferTiled (A : SA.Idx → EReal) (B : SB.Idx → EReal) : EReal :=
  (0 + ∑ n : Fin 4096, root (rowMin A B n.val))
    + (0 + ∑ m : Fin 32768, root ((Finset.range 8).inf fun i => (Finset.range 512).inf fun r => d2 A B (512 * i + r) m.val))

/-- The chamfer distance as the expansion form produces it: the root taken of every expanded squared distance
    before the minima. -/
def chamferExpanded (A : SA.Idx → EReal) (B : SB.Idx → EReal) : EReal :=
  (0 + ∑ n : Fin 4096, (Finset.range 32768).inf fun m => root (d2x A B n.val m))
    + (0 + ∑ m : Fin 32768, (Finset.range 4096).inf fun n => root (d2x A B n m.val))

/-- Every entry of an array is a real number. -/
def AllReal {S : Shape} (X : S.Idx → EReal) : Prop := ∀ i, ∃ r : ℝ, X i = (r : EReal)

end Cert.Chamfer

end
-- ==== Proof.Blocks.lean ====
/-
  What the kernel's two input windows hold.  The host lines before the call lay the first set out as a
  [4096, 2] array (row = point) and the second set, read back to front, as a [2, 32768] array (column = point);
  grid point `t` = (t / 16, t % 16) fetches rows 512·(t/16) … of the first and columns 2048·(t%16) … of the second.
-/
import proofs.«141072_j2714419331831_2_alg».proof.Proof.Gen.KernelIdeal.Frame
import proofs.«141072_j2714419331831_2_alg».proof.Proof.Spec
import Idealize.ShloMosaic.Lib.Pipeline.Value
import Idealize.ShloMosaic.Lib.StableHlo.Run
import Idealize.ShloMosaic.Lib.ValueIdx
import Idealize.ShloMosaic.Lib.ValueLayout

noncomputable section

namespace Cert.Chamfer.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ)

/-- The first argument array on core `c`. -/
abbrev argA (c : Dev nD) : SA.Idx → EReal := m ((c : Thread nD τ).loc main_arg0)
/-- The second argument array on core `c`. -/
abbrev argB (c : Dev nD) : SB.Idx → EReal := m ((c : Thread nD τ).loc main_arg1)

/-- The first window's array: slab 0 of the first argument, as [4096, 2]. -/
theorem V_points (c : Dev nD) : (V m c main_v1 : S4096x2.Idx → EReal)
    = shapeCast S4096x2 (extractStridedSlice S1x4096x2 ![0, 0, 0] (m ((c : Thread nD τ).loc main_arg0)) Facts₀.slices_S2x4096x2_S1x4096x2_0_0_0) Facts₀.shapeCasts_S1x4096x2_S4096x2 := by
  show StableHlo.after hostOps0 (fun b => m (c, b)) (Proc.devRef .tc main_v1) = _
  after_results; rfl

/-- The second window's array: slab 1 of the second argument, as [32768, 2], rows reversed, transposed. -/
theorem V_skel (c : Dev nD) : (V m c main_v5 : S2x32768.Idx → EReal)
    = transpose S2x32768 [1, 0] (Host.reverse [0] (shapeCast S32768x2 (extractStridedSlice S1x32768x2 ![1, 0, 0] (m ((c : Thread nD τ).loc main_arg1)) Facts₀.slices_S2x32768x2_S1x32768x2_1_0_0) Facts₀.shapeCasts_S1x32768x2_S32768x2)) Facts₀.transposes_S32768x2_S2x32768_1_0 := by
  show StableHlo.after hostOps0 (fun b => m (c, b)) (Proc.devRef .tc main_v5) = _
  after_results; rfl

/-- Row `n`, column `k` of the first window's array is coordinate `k` of point `n` of the first set. -/
theorem points_apply (c : Dev nD) (n : Fin 4096) (k : Fin 2) :
    (V m c main_v1 : S4096x2.Idx → EReal) (ix2 n k) = pt (argA m c) n.val k.val := by
  rw [V_points]
  refine (shapeCast_1ab_ab_apply _ _ n k).trans ?_
  refine (extractStridedSlice_apply ![0, 0, 0] _ _ (ix3 (0 : Fin 1) n k) (ix3 (0 : Fin 2) n k) (fun a => match a with
    | ⟨0, _⟩ => rfl
    | ⟨1, _⟩ => by show n.val = 0 + n.val; omega
    | ⟨2, _⟩ => by show k.val = 0 + k.val; omega)).trans ?_
  unfold pt
  have hn := n.isLt
  have hk := k.isLt
  exact congrArg (m ((c : Thread nD τ).loc main_arg0)) (funext fun a => match a with
    | ⟨0, _⟩ => rfl
    | ⟨1, _⟩ => Fin.ext (by show n.val = n.val % 4096; omega)
    | ⟨2, _⟩ => Fin.ext (by show k.val = k.val % 2; omega))

/-- Row `k`, column `j` of the second window's array is coordinate `k` of point `j` of the second set. -/
theorem skel_apply (c : Dev nD) (k : Fin 2) (j : Fin 32768) :
    (V m c main_v5 : S2x32768.Idx → EReal) (ix2 k j) = sk (argB m c) j.val k.val := by
  rw [V_skel]
  refine (transpose_ix2_apply _ _ k j).trans ?_
  unfold Host.reverse
  have hj := j.isLt
  have hk := k.isLt
  have e : (fun a : Fin S32768x2.rank => if a ∈ ([0] : List (Fin S32768x2.rank)) then ((ix2 j k : S32768x2.Idx) a).rev else (ix2 j k : S32768x2.Idx) a)
      = (ix2 (⟨32767 - j.val, by omega⟩ : Fin 32768) k : S32768x2.Idx) := funext fun a => match a with
    | ⟨0, _⟩ => Fin.ext (by show (Fin.rev j).val = 32767 - j.val; rw [Fin.val_rev]; omega)
    | ⟨1, _⟩ => rfl
  rw [e]
  refine (shapeCast_1ab_ab_apply _ _ _ k).trans ?_
  refine (extractStridedSlice_apply ![1, 0, 0] _ _ (ix3 (0 : Fin 1) (⟨32767 - j.val, by omega⟩ : Fin 32768) k) (ix3 (1 : Fin 2) (⟨32767 - j.val, by omega⟩ : Fin 32768) k) (fun a => match a with
    | ⟨0, _⟩ => rfl
    | ⟨1, _⟩ => by show 32767 - j.val = 0 + (32767 - j.val); omega
    | ⟨2, _⟩ => by show k.val = 0 + k.val; omega)).trans ?_
  unfold sk
  exact congrArg (m ((c : Thread nD τ).loc main_arg1)) (funext fun a => match a with
    | ⟨0, _⟩ => rfl
    | ⟨1, _⟩ => Fin.ext (by show 32767 - j.val = 32767 - j.val % 32768; omega)
    | ⟨2, _⟩ => Fin.ext (by show k.val = k.val % 2; omega))

/-- Where each window's block sits at grid point `t`, decided once over the 128 points. -/
theorem idx_facts : ∀ t : Fin cfg0.N, win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = t.val / 16 ∧ win0_2.index t (1 : Fin 2) = 0
    ∧ win0_3.index t (0 : Fin 3) = t.val / 16 ∧ win0_3.index t (1 : Fin 3) = 0 ∧ win0_3.index t (2 : Fin 3) = t.val % 16 :=
  (by decide +kernel : ∀ t : Fin grid0.N, _)

/-- The block of points fetched at `t`: row `r` is point `512·(t/16) + r` of the first set. -/
theorem pblock_apply (c : Dev nD) (t : Fin cfg0.N) (r : Fin 512) (k : Fin 2) :
    (iblk m c 0 t : Vec Ideal S512x2 .f32) (ix2 r k) = pt (argA m c) (512 * (t.val / 16) + r.val) k.val := by
  have hN : t.val < 128 := lt_of_lt_of_eq t.isLt (show cfg0.N = 128 from N_0)
  have hr := r.isLt
  obtain ⟨e0, e1, -⟩ := idx_facts t
  unfold iblk
  rw [View.read_apply]
  show (V m c main_v1 : S4096x2.Idx → EReal) (((cfg0.win 0).blk t).view.emb (ix2 r k)) = _
  have e : ((cfg0.win 0).blk t).view.emb (ix2 r k) = (ix2 (⟨512 * (t.val / 16) + r.val, by omega⟩ : Fin 4096) k : S4096x2.Idx) := by
    funext a; apply Fin.ext
    match a with
    | ⟨0, _⟩ => show win0_0.index t (0 : Fin 2) * 512 + 1 * r.val = 512 * (t.val / 16) + r.val; rw [e0]; omega
    | ⟨1, _⟩ => show win0_0.index t (1 : Fin 2) * 2 + 1 * k.val = k.val; rw [e1]; omega
  rw [e]
  exact points_apply m c _ k

/-- The block of the second set fetched at `t`: column `l` is point `2048·(t%16) + l` of the second set. -/
theorem sblock_apply (c : Dev nD) (t : Fin cfg0.N) (k : Fin 2) (l : Fin 2048) :
    (iblk m c 1 t : Vec Ideal S2x2048 .f32) (ix2 k l) = sk (argB m c) (2048 * (t.val % 16) + l.val) k.val := by
  have hN : t.val < 128 := lt_of_lt_of_eq t.isLt (show cfg0.N = 128 from N_0)
  have hl := l.isLt
  obtain ⟨-, -, e0, e1, -⟩ := idx_facts t
  unfold iblk
  rw [View.read_apply]
  show (V m c main_v5 : S2x32768.Idx → EReal) (((cfg0.win 1).blk t).view.emb (ix2 k l)) = _
  have e : ((cfg0.win 1).blk t).view.emb (ix2 k l) = (ix2 k (⟨2048 * (t.val % 16) + l.val, by omega⟩ : Fin 32768) : S2x32768.Idx) := by
    funext a; apply Fin.ext
    match a with
    | ⟨0, _⟩ => show win0_1.index t (0 : Fin 2) * 2 + 1 * k.val = k.val; rw [e0]; omega
    | ⟨1, _⟩ => show win0_1.index t (1 : Fin 2) * 2048 + 1 * l.val = 2048 * (t.val % 16) + l.val; rw [e1]; omega
  rw [e]
  exact skel_apply m c k _

end Cert.Chamfer.Kernel

end
-- ==== Proof.Consts.lean ====
/-
  The float words the two programs spell, as the extended reals they denote: zero, two and plus infinity.
  (The floor ε under the squared distances is the same word in both programs and is never evaluated.)
-/
import Idealize.ShloMosaic.PureOps.Ideal

noncomputable section

namespace Cert.Chamfer

open Idealize.ShloMosaic

/-- The word of `+0.0` denotes zero. -/
theorem zeroW : Ideal.ofBits .f32 0x00000000#32 = 0 := by
  simp [Ideal.ofBits, Ideal.ieee]

/-- The word of `2.0` denotes the real number two. -/
theorem twoW : Ideal.ofBits .f32 0x40000000#32 = ((2 : ℝ) : EReal) := by
  simp [Ideal.ofBits, Ideal.ieee, -EReal.coe_mul]; norm_num

/-- The word of `+inf` denotes the top of the extended reals. -/
theorem infW : Ideal.ofBits .f32 0x7F800000#32 = ⊤ := by
  simp [Ideal.ofBits, Ideal.ieee]

end Cert.Chamfer

end
-- ==== Proof.Algebra.lean ====
/-
  Order and algebra facts over the extended reals behind the chamfer distance: the rooted floor
  `root x = √(max x ε)` is monotone and fixes the top, hence commutes with finite minima; the expanded
  squared distance |a|² + |b|² − 2 a·b equals the squared distance by differences when all coordinates
  are real; a minimum over a range of length a·b splits into a minimum of a band minima of length b; a
  fold of `min` from the top over all of `Fin K` is the minimum over `range K`.  From these the tiled
  and the expanded forms of the chamfer distance equal the plain one.
-/
import proofs.«141072_j2714419331831_2_alg».proof.Proof.Spec
import proofs.«141072_j2714419331831_2_alg».proof.Proof.Consts

noncomputable section

namespace Cert.Chamfer

open Idealize.ShloMosaic Idealize.ShloMosaic.ValueIdx

/-- The extended square root is monotone: it sends ⊥ and negative reals to ⊥, ⊤ to ⊤, and is the
    real square root (monotone) on the nonnegative reals. -/
theorem sqrt_mono : Monotone Ideal.sqrt := by
  intro x y hxy
  induction x using EReal.rec with
  | bot => simp
  | top =>
    have hy : y = ⊤ := top_le_iff.mp hxy
    subst hy
    exact le_rfl
  | coe a =>
    induction y using EReal.rec with
    | bot => simp at hxy
    | top => simp
    | coe b =>
      have hab : a ≤ b := EReal.coe_le_coe_iff.mp hxy
      simp only [Ideal.sqrt_coe]
      split_ifs with h1 h2 h2
      · exact le_rfl
      · exact bot_le
      · exfalso; linarith
      · exact EReal.coe_le_coe_iff.mpr (Real.sqrt_le_sqrt hab)

/-- `root` is the monotone square root after the monotone `max · ε`. -/
theorem root_mono : Monotone root := fun _ _ h => sqrt_mono (max_le_max h le_rfl)

/-- `max ⊤ ε = ⊤` and `√⊤ = ⊤`. -/
theorem root_top : root ⊤ = ⊤ := by
  simp [root]

/-- A monotone map of a linear order that fixes the top commutes with finite minima. -/
theorem root_inf {ι : Type*} (s : Finset ι) (f : ι → EReal) :
    root (s.inf f) = s.inf (fun i => root (f i)) :=
  Finset.comp_inf_eq_inf_comp_of_is_total root root_mono root_top

/-- (a₀−b₀)² + (a₁−b₁)² = (a₀²+a₁²) + (b₀²+b₁²) − 2(a₀b₀+a₁b₁) for real coordinates. -/
theorem d2x_eq_d2 {A : SA.Idx → EReal} {B : SB.Idx → EReal} (hA : AllReal A) (hB : AllReal B)
    (n m : ℕ) : d2x A B n m = d2 A B n m := by
  obtain ⟨a0, ha0⟩ : ∃ r : ℝ, pt A n 0 = (r : EReal) := hA _
  obtain ⟨a1, ha1⟩ : ∃ r : ℝ, pt A n 1 = (r : EReal) := hA _
  obtain ⟨b0, hb0⟩ : ∃ r : ℝ, sk B m 0 = (r : EReal) := hB _
  obtain ⟨b1, hb1⟩ : ∃ r : ℝ, sk B m 1 = (r : EReal) := hB _
  simp only [d2x, d2, ha0, ha1, hb0, hb1, zero_add, ← EReal.coe_mul, ← EReal.coe_add,
    ← EReal.coe_sub]
  congr 1
  ring

/-- Every index below a·b is b·i + j with i < a, j < b, and conversely. -/
theorem inf_range_mul (a b : ℕ) (f : ℕ → EReal) :
    (Finset.range (a * b)).inf f
      = (Finset.range a).inf fun i => (Finset.range b).inf fun j => f (b * i + j) := by
  apply le_antisymm
  · refine Finset.le_inf fun i hi => Finset.le_inf fun j hj => Finset.inf_le ?_
    have hi' : i + 1 ≤ a := Finset.mem_range.mp hi
    have hj' : j < b := Finset.mem_range.mp hj
    have h1 : b * (i + 1) ≤ b * a := Nat.mul_le_mul_left b hi'
    have h2 : b * (i + 1) = b * i + b := Nat.mul_succ b i
    have h3 : a * b = b * a := Nat.mul_comm a b
    exact Finset.mem_range.mpr (by omega)
  · refine Finset.le_inf fun k hk => ?_
    have hk' : k < b * a := by
      have := Finset.mem_range.mp hk
      rwa [Nat.mul_comm] at this
    have hb : 0 < b := by
      rcases Nat.eq_zero_or_pos b with h | h
      · subst h; simp at hk'
      · exact h
    have hi : k / b ∈ Finset.range a := Finset.mem_range.mpr (Nat.div_lt_of_lt_mul hk')
    have hj : k % b ∈ Finset.range b := Finset.mem_range.mpr (Nat.mod_lt k hb)
    calc (Finset.range a).inf (fun i => (Finset.range b).inf fun j => f (b * i + j))
        ≤ (Finset.range b).inf (fun j => f (b * (k / b) + j)) :=
          Finset.inf_le (f := fun i => (Finset.range b).inf fun j => f (b * i + j)) hi
      _ ≤ f (b * (k / b) + k % b) := Finset.inf_le (f := fun j => f (b * (k / b) + j)) hj
      _ = f k := by rw [Nat.div_add_mod]

/-- Folding `min` from the top over a finite set is its minimum. -/
theorem fold_min_eq_inf {ι : Type*} (s : Finset ι) (g : ι → EReal) :
    s.fold min ⊤ g = s.inf g := rfl

/-- The indices of `Fin K` are exactly the naturals below `K`. -/
theorem fold_min_univ (K : ℕ) (f : ℕ → EReal) :
    (Finset.univ : Finset (Fin K)).fold min ⊤ (fun k => f k.val) = (Finset.range K).inf f := by
  rw [fold_min_eq_inf]
  apply le_antisymm
  · refine Finset.le_inf fun k hk => ?_
    exact Finset.inf_le (f := fun k : Fin K => f k.val)
      (b := (⟨k, Finset.mem_range.mp hk⟩ : Fin K)) (Finset.mem_univ _)
  · refine Finset.le_inf fun k _ => ?_
    exact Finset.inf_le (Finset.mem_range.mpr k.isLt)

/-- The range below k+1 is the range below k with k adjoined. -/
theorem inf_range_succ (k : ℕ) (f : ℕ → EReal) :
    (Finset.range (k + 1)).inf f = min ((Finset.range k).inf f) (f k) := by
  rw [Finset.range_add_one, Finset.inf_insert, inf_comm]

/-- The column minimum over 4096 = 8·512 points is the minimum of the eight band minima. -/
theorem chamferTiled_eq (A : SA.Idx → EReal) (B : SB.Idx → EReal) :
    chamferTiled A B = chamfer A B := by
  have hband : ∀ m : ℕ,
      ((Finset.range 8).inf fun i => (Finset.range 512).inf fun r => d2 A B (512 * i + r) m)
        = colMin A B m := fun m => (inf_range_mul 8 512 (fun n => d2 A B n m)).symm
  simp only [chamferTiled, chamfer, hband]

/-- With real coordinates the expanded squared distance is the squared distance, and the root passes
    through the minima. -/
theorem chamferExpanded_eq {A : SA.Idx → EReal} {B : SB.Idx → EReal} (hA : AllReal A)
    (hB : AllReal B) : chamferExpanded A B = chamfer A B := by
  have hd : ∀ n m : ℕ, d2x A B n m = d2 A B n m := d2x_eq_d2 hA hB
  simp only [chamferExpanded, chamfer, rowMin, colMin, hd, root_inf]

end Cert.Chamfer

end
-- ==== Proof.Invariant.lean ====
/-
  What the staging buffers hold after each grid point, by induction over a sweep.  Write the point as
  `t = 16·i + j`: band `i` of 512 points of the first set against band `j` of 2048 points of the second.
  After the point, the running row minimum of point `512·i + r` is its least squared distance to bands
  `0 … j` of the second set; the column-minimum block holds, for point `2048·j + l` of the second set, its least
  squared distance to band `i` of the first; and at `j = 15` the row-minimum output block is the finished
  running row minimum.
-/
import proofs.«141072_j2714419331831_2_alg».proof.Proof.Pieces
import proofs.«141072_j2714419331831_2_alg».proof.Proof.Payload
import proofs.«141072_j2714419331831_2_alg».proof.Proof.Blocks
import proofs.«141072_j2714419331831_2_alg».proof.Proof.Algebra
import proofs.«141072_j2714419331831_2_alg».proof.Proof.Consts

noncomputable section

namespace Cert.Chamfer.Kernel

open Idealize.ShloMosaic Idealize.ShloMosaic.TcCoe Idealize.SL.Sem Idealize.ShloMosaic.ValueIdx
open Idealize.ShloMosaic.Pipeline (Dat)
open Cert.KernelIdeal Cert.KernelIdeal.Gen

/-- Least squared distance of point `512·i + r` of the first set to band `j` of the second. -/
def rowPart (A : SA.Idx → EReal) (B : SB.Idx → EReal) (i j r : ℕ) : EReal :=
  (Finset.range 2048).inf fun l => d2 A B (512 * i + r) (2048 * j + l)

/-- Least squared distance of point `512·i + r` of the first set to bands `0 … j` of the second. -/
def rowRun (A : SA.Idx → EReal) (B : SB.Idx → EReal) (i j r : ℕ) : EReal :=
  (Finset.range (j + 1)).inf fun j' => rowPart A B i j' r

/-- Least squared distance of point `2048·j + l` of the second set to band `i` of the first. -/
def colPart (A : SA.Idx → EReal) (B : SB.Idx → EReal) (i j l : ℕ) : EReal :=
  (Finset.range 512).inf fun r => d2 A B (512 * i + r) (2048 * j + l)

theorem rowRun_zero (A : SA.Idx → EReal) (B : SB.Idx → EReal) (i r : ℕ) :
    rowRun A B i 0 r = min ⊤ (rowPart A B i 0 r) := by
  unfold rowRun
  rw [inf_range_succ, Finset.range_zero, Finset.inf_empty]

theorem rowRun_succ (A : SA.Idx → EReal) (B : SB.Idx → EReal) (i j r : ℕ) :
    rowRun A B i (j + 1) r = min (rowRun A B i j r) (rowPart A B i (j + 1) r) := by
  unfold rowRun
  rw [inf_range_succ]

/-- After the last band the running row minimum is the row minimum over the whole second set. -/
theorem rowRun_last (A : SA.Idx → EReal) (B : SB.Idx → EReal) (i r : ℕ) :
    rowRun A B i 15 r = rowMin A B (512 * i + r) := by
  unfold rowRun rowMin rowPart
  exact (inf_range_mul 16 2048 (fun x => d2 A B (512 * i + r) x)).symm

theorem infWord_eq : infWord = ⊤ := infW

variable (m : (ℓ : Loc nD τ sig) → Buf (Elt Ideal) ℓ)

/-- The tile at grid point `t`, entry by entry, is the squared distance between the two bands' points. -/
theorem tile_eq (c : Dev nD) (t : Fin cfg0.N) (r : Fin 512) (l : Fin 2048) :
    tile (iblk m c 0 t : Vec Ideal S512x2 .f32) (iblk m c 1 t : Vec Ideal S2x2048 .f32) r l
      = d2 (argA m c) (argB m c) (512 * (t.val / 16) + r.val) (2048 * (t.val % 16) + l.val) := by
  unfold tile d2
  rw [pblock_apply m c t r 0, pblock_apply m c t r 1, sblock_apply m c t 0 l, sblock_apply m c t 1 l]
  rfl

theorem tile_row (c : Dev nD) (t : Fin cfg0.N) (r : Fin 512) :
    (Finset.univ : Finset (Fin 2048)).fold min infWord (fun l => tile (iblk m c 0 t : Vec Ideal S512x2 .f32) (iblk m c 1 t : Vec Ideal S2x2048 .f32) r l)
      = rowPart (argA m c) (argB m c) (t.val / 16) (t.val % 16) r.val := by
  unfold rowPart
  rw [show (fun l : Fin 2048 => tile (iblk m c 0 t : Vec Ideal S512x2 .f32) (iblk m c 1 t : Vec Ideal S2x2048 .f32) r l)
      = fun l : Fin 2048 => (fun x : ℕ => d2 (argA m c) (argB m c) (512 * (t.val / 16) + r.val) (2048 * (t.val % 16) + x)) l.val
    from funext fun l => tile_eq m c t r l, infWord_eq]
  exact fold_min_univ 2048 (fun x : ℕ => d2 (argA m c) (argB m c) (512 * (t.val / 16) + r.val) (2048 * (t.val % 16) + x))

theorem tile_col (c : Dev nD) (t : Fin cfg0.N) (l : Fin 2048) :
    (Finset.univ : Finset (Fin 512)).fold min infWord (fun r => tile (iblk m c 0 t : Vec Ideal S512x2 .f32) (iblk m c 1 t : Vec Ideal S2x2048 .f32) r l)
      = colPart (argA m c) (argB m c) (t.val / 16) (t.val % 16) l.val := by
  unfold colPart
  rw [show (fun r : Fin 512 => tile (iblk m c 0 t : Vec Ideal S512x2 .f32) (iblk m c 1 t : Vec Ideal S2x2048 .f32) r l)
      = fun r : Fin 512 => (fun x : ℕ => d2 (argA m c) (argB m c) (512 * (t.val / 16) + x) (2048 * (t.val % 16) + l.val)) r.val
    from funext fun r => tile_eq m c t r l, infWord_eq]
  exact fold_min_univ 512 (fun x : ℕ => d2 (argA m c) (argB m c) (512 * (t.val / 16) + x) (2048 * (t.val % 16) + l.val))

/-- The running row minimum after the first point of a sweep. -/
theorem scratch_first (c : Dev nD) (t : Fin cfg0.N) (h0 : t.val % 16 = 0) (r : Fin 512) (u : Fin 1) :
    (outsAt0 m c t.val t.isLt).2.2 (ix2 r u) = rowRun (argA m c) (argB m c) (t.val / 16) (t.val % 16) r.val := by
  have h1 : ¬t.val % 16 = 15 := by omega
  rw [outsAt0_A m c t h0 h1]
  dsimp only
  refine (congrFun (sout_A (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t)) (ix2 r u)).trans ?_
  refine (pay3_apply (iblk m c 0 t) (iblk m c 1 t) (k0_pay1 (F := Ideal)) r u).trans ?_
  rw [pay1_apply, tile_row m c t r, infWord_eq, h0, rowRun_zero]

/-- The running row minimum after a later point of a sweep, from what the point before left. -/
theorem scratch_next (c : Dev nD) (t : Fin cfg0.N) (h0 : ¬t.val % 16 = 0)
    (prev : ∀ (r : Fin 512) (u : Fin 1), (outsAt0 m c (t.val - 1) (Nat.lt_of_le_of_lt (Nat.sub_le _ _) t.isLt)).2.2 (ix2 r u)
      = rowRun (argA m c) (argB m c) ((t.val - 1) / 16) ((t.val - 1) % 16) r.val)
    (r : Fin 512) (u : Fin 1) :
    (outsAt0 m c t.val t.isLt).2.2 (ix2 r u) = rowRun (argA m c) (argB m c) (t.val / 16) (t.val % 16) r.val := by
  have e1 : (t.val - 1) / 16 = t.val / 16 := by omega
  have e2 : t.val % 16 = (t.val - 1) % 16 + 1 := by omega
  by_cases h1 : t.val % 16 = 15
  · rw [outsAt0_C m c t h0 h1]
    dsimp only
    refine (congrFun (sout_C (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (outsAt0 m c (t.val - 1) (Nat.lt_of_le_of_lt (Nat.sub_le _ _) t.isLt)).2.2) (ix2 r u)).trans ?_
    refine (pay3_apply (iblk m c 0 t) (iblk m c 1 t) _ r u).trans ?_
    rw [prev r u, tile_row m c t r, e1]
    conv_rhs => rw [e2]
    rw [rowRun_succ, ← e2]
  · rw [outsAt0_B m c t h0 h1]
    dsimp only
    refine (congrFun (sout_B (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (outsAt0 m c (t.val - 1) (Nat.lt_of_le_of_lt (Nat.sub_le _ _) t.isLt)).2.2) (ix2 r u)).trans ?_
    refine (pay3_apply (iblk m c 0 t) (iblk m c 1 t) _ r u).trans ?_
    rw [prev r u, tile_row m c t r, e1]
    conv_rhs => rw [e2]
    rw [rowRun_succ, ← e2]

/-- THE RUNNING ROW MINIMUM after every point: least squared distance to the bands swept so far. -/
theorem scratch_eq (c : Dev nD) : ∀ (n : ℕ) (h : n < cfg0.N) (r : Fin 512) (u : Fin 1),
    (outsAt0 m c n h).2.2 (ix2 r u) = rowRun (argA m c) (argB m c) (n / 16) (n % 16) r.val := by
  intro n
  induction n with
  | zero => intro h r u; exact scratch_first m c ⟨0, h⟩ rfl r u
  | succ n ih =>
    intro h r u
    by_cases h0 : (n + 1) % 16 = 0
    · exact scratch_first m c ⟨n + 1, h⟩ h0 r u
    · exact scratch_next m c ⟨n + 1, h⟩ h0 (fun r u => ih (Nat.lt_of_succ_lt h) r u) r u

/-- THE COLUMN-MINIMUM BLOCK after every point. -/
theorem colblock_eq (c : Dev nD) (t : Fin cfg0.N) (u v : Fin 1) (l : Fin 2048) :
    (outsAt0 m c t.val t.isLt).2.1 (ix3 u v l) = colPart (argA m c) (argB m c) (t.val / 16) (t.val % 16) l.val := by
  by_cases h0 : t.val % 16 = 0
  · have h1 : ¬t.val % 16 = 15 := by omega
    rw [outsAt0_A m c t h0 h1]
    dsimp only
    refine (congrFun (out_A_3 (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t)) (ix3 u v l)).trans ?_
    exact (pay4_apply (iblk m c 0 t) (iblk m c 1 t) u v l).trans (tile_col m c t l)
  · by_cases h1 : t.val % 16 = 15
    · rw [outsAt0_C m c t h0 h1]
      dsimp only
      refine (congrFun (out_C_3 (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (outsAt0 m c (t.val - 1) (Nat.lt_of_le_of_lt (Nat.sub_le _ _) t.isLt)).2.2) (ix3 u v l)).trans ?_
      exact (pay4_apply (iblk m c 0 t) (iblk m c 1 t) u v l).trans (tile_col m c t l)
    · rw [outsAt0_B m c t h0 h1]
      dsimp only
      refine (congrFun (out_B_3 (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (outsAt0 m c (t.val - 1) (Nat.lt_of_le_of_lt (Nat.sub_le _ _) t.isLt)).2.2) (ix3 u v l)).trans ?_
      exact (pay4_apply (iblk m c 0 t) (iblk m c 1 t) u v l).trans (tile_col m c t l)

/-- THE ROW-MINIMUM OUTPUT BLOCK at the last point of a sweep: the row minimum over the whole second set. -/
theorem rowblock_eq (c : Dev nD) (t : Fin cfg0.N) (h1 : t.val % 16 = 15) (r : Fin 512) (u : Fin 1) :
    (outsAt0 m c t.val t.isLt).1 (ix2 r u) = rowMin (argA m c) (argB m c) (512 * (t.val / 16) + r.val) := by
  have h0 : ¬t.val % 16 = 0 := by omega
  have e1 : (t.val - 1) / 16 = t.val / 16 := by omega
  have e2 : (t.val - 1) % 16 = 14 := by omega
  rw [outsAt0_C m c t h0 h1]
  dsimp only
  refine (congrFun (out_C_2 (F := Ideal) c (grid0.coords t) (ms0_0 t) (hs0_0 t) (ms0_1 t) (hs0_1 t) (ms0_2 t) (hs0_2 t) (ms0_3 t) (hs0_3 t) scM0_0 (Memref.isWhole_whole _) _ _ (iblk m c 0 t) (iblk m c 1 t) (outsAt0 m c (t.val - 1) (Nat.lt_of_le_of_lt (Nat.sub_le _ _) t.isLt)).2.2) (ix2 r u)).trans ?_
  refine (pay3_apply (iblk m c 0 t) (iblk m c 1 t) _ r u).trans ?_
  rw [scratch_eq m c (t.val - 1) _ r u, tile_row m c t r, e1, e2, h1, ← rowRun_succ, rowRun_last]

end Cert.Chamfer.Kernel

end
-- ==== Proof.Tail.lean ====
/-
  The host lines after the call, as one function of the call's two result arrays: the [4096, 1] array `R` of
  row minima and the [8, 1, 32768] array `C` of per-band column minima.  The lines take the minimum of `C`
  over the eight bands, put the floor ε under both arrays, take roots, sum each array from zero and add the
  two sums.
-/
import proofs.«141072_j2714419331831_2_alg».proof.KernelIdeal
import proofs.«141072_j2714419331831_2_alg».proof.Proof.Spec
import proofs.«141072_j2714419331831_2_alg».proof.Proof.Algebra
import proofs.«141072_j2714419331831_2_alg».proof.Proof.Consts
import Idealize.ShloMosaic.Lib.ValueIdx
import Idealize.ShloMosaic.PureOps.Ideal.Laws
import Idealize.ShloMosaic.PureOps.Reduce

noncomputable section

namespace Cert.Chamfer.Kernel

open Idealize.ShloMosaic Idealize.ShloMosaic.ValueIdx
open Cert.KernelIdeal Cert.KernelIdeal.Facts₀

variable [Cert.KernelIdeal.Facts]

/-- The host lines after the call, applied to the call's two result arrays. -/
def tailFn (R : FVec Ideal S4096x1 .f32) (C : FVec Ideal S8x1x32768 .f32) : FVec Ideal S_ .f32 :=
  addf
    (Host.reduceAdd (F := Ideal) (Host.sqrt (F := Ideal) (maximumf R (broadcastInDim S4096x1 ![] bcast_S_S4096x1 (constant (F := Ideal) S_ .f32 0x2B8CBCCC#32))))
      (constant (F := Ideal) S_ .f32 0x00000000#32) reducesTo_S4096x1_S_d0_1 h_S_)
    (Host.reduceAdd (F := Ideal) (Host.sqrt (F := Ideal) (maximumf
        (Host.reduce (FloatOps.minimumf (F := Ideal)) C (constant (F := Ideal) S_ .f32 0x7F800000#32) reducesTo_S8x1x32768_S1x32768_d0 h_S_)
        (broadcastInDim S1x32768 ![] bcast_S_S1x32768 (constant (F := Ideal) S_ .f32 0x2B8CBCCC#32))))
      (constant (F := Ideal) S_ .f32 0x00000000#32) reducesTo_S1x32768_S_d0_1 h_S_)

/-- A host sum of a whole [4096, 1] array from zero: zero plus the sum down the column. -/
theorem sum_col (y : FVec Ideal S4096x1 .f32) (j : S_.Idx) :
    Host.reduceAdd (F := Ideal) y (constant (F := Ideal) S_ .f32 0x00000000#32) reducesTo_S4096x1_S_d0_1 h_S_ j
      = 0 + ∑ n : Fin 4096, y (ix2 n (0 : Fin 1)) := by
  simp only [Host.reduceAdd, Ideal.hostReduceAdd_def]
  refine (Ideal.hostReduceAdd_total reducesTo_S4096x1_S_d0_1 (fun b => b.elim0) y _ j).trans ?_
  rw [sum_idx2]
  refine congrArg₂ (· + ·) zeroW (Finset.sum_congr rfl fun n _ => ?_)
  exact Fin.sum_univ_one _

/-- A host sum of a whole [1, 32768] array from zero: zero plus the sum along the row. -/
theorem sum_row (y : FVec Ideal S1x32768 .f32) (j : S_.Idx) :
    Host.reduceAdd (F := Ideal) y (constant (F := Ideal) S_ .f32 0x00000000#32) reducesTo_S1x32768_S_d0_1 h_S_ j
      = 0 + ∑ q : Fin 32768, y (ix2 (0 : Fin 1) q) := by
  simp only [Host.reduceAdd, Ideal.hostReduceAdd_def]
  refine (Ideal.hostReduceAdd_total reducesTo_S1x32768_S_d0_1 (fun b => b.elim0) y _ j).trans ?_
  rw [sum_idx2]
  exact congrArg₂ (· + ·) zeroW (Fin.sum_univ_one _)

/-- The minimum over the eight bands, at column `q`. -/
theorem band_min (C : FVec Ideal S8x1x32768 .f32) (Cn : ℕ → ℕ → EReal)
    (hC : ∀ (i : Fin 8) (q : Fin 32768), C (ix3 i (0 : Fin 1) q) = Cn i.val q.val) (u : Fin 1) (q : Fin 32768) :
    Host.reduce (FloatOps.minimumf (F := Ideal)) C (constant (F := Ideal) S_ .f32 0x7F800000#32) reducesTo_S8x1x32768_S1x32768_d0 h_S_ (ix2 u q)
      = (Finset.range 8).inf fun i => Cn i q.val := by
  have hu := u.isLt
  have hred : S8x1x32768.Reduces [0] S1x32768 := by decide
  refine (Host.reduce_eq_fold_single (FloatOps.minimumf (F := Ideal)) C _ reducesTo_S8x1x32768_S1x32768_d0 hred h_S_ (ix2 u q)).trans ?_
  have hl : ∀ k : Fin (S8x1x32768.size 0), hred.lift (ix2 u q) k = (ix3 (⟨k.val, k.isLt⟩ : Fin 8) (0 : Fin 1) q : S8x1x32768.Idx) :=
    fun k => funext fun a => Fin.ext (by
      match a with
      | ⟨0, _⟩ => rfl
      | ⟨1, _⟩ => exact (rfl : _ = u.val).trans ((by omega : u.val = 0).trans rfl)
      | ⟨2, _⟩ => rfl)
  have e : (C ∘ hred.lift (ix2 u q)) = fun k : Fin (S8x1x32768.size 0) => (fun i : ℕ => Cn i q.val) k.val :=
    funext fun k => (congrArg C (hl k)).trans (hC ⟨k.val, k.isLt⟩ q)
  rw [e]
  show (Finset.univ : Finset (Fin (S8x1x32768.size 0))).fold min (Ideal.ofBits .f32 0x7F800000#32) _ = _
  rw [infW]
  exact fold_min_univ (S8x1x32768.size 0) (fun i : ℕ => Cn i q.val)

/-- Floor and root of a [4096, 1] array, entry by entry. -/
theorem root_col (X : FVec Ideal S4096x1 .f32) (n : Fin 4096) :
    Host.sqrt (F := Ideal) (maximumf X (broadcastInDim S4096x1 ![] bcast_S_S4096x1 (constant (F := Ideal) S_ .f32 0x2B8CBCCC#32))) (ix2 n (0 : Fin 1))
      = root (X (ix2 n (0 : Fin 1))) := rfl

/-- Floor and root of a [1, 32768] array, entry by entry. -/
theorem root_row (X : FVec Ideal S1x32768 .f32) (q : Fin 32768) :
    Host.sqrt (F := Ideal) (maximumf X (broadcastInDim S1x32768 ![] bcast_S_S1x32768 (constant (F := Ideal) S_ .f32 0x2B8CBCCC#32))) (ix2 (0 : Fin 1) q)
      = root (X (ix2 (0 : Fin 1) q)) := rfl

/-- THE TAIL: rooted row minima summed, plus rooted band-wise column minima summed. -/
theorem tailFn_apply (R : FVec Ideal S4096x1 .f32) (C : FVec Ideal S8x1x32768 .f32) (Rn : ℕ → EReal) (Cn : ℕ → ℕ → EReal)
    (hR : ∀ n : Fin 4096, R (ix2 n (0 : Fin 1)) = Rn n.val)
    (hC : ∀ (i : Fin 8) (q : Fin 32768), C (ix3 i (0 : Fin 1) q) = Cn i.val q.val) (j : S_.Idx) :
    tailFn R C j = (0 + ∑ n : Fin 4096, root (Rn n.val)) + (0 + ∑ q : Fin 32768, root ((Finset.range 8).inf fun i => Cn i q.val)) := by
  unfold tailFn
  refine (addf_apply _ _ j).trans ?_
  refine congrArg₂ (· + ·) ((sum_col _ j).trans (congrArg (0 + ·) (Finset.sum_congr rfl fun n _ => ?_))) ((sum_row _ j).trans (congrArg (0 + ·) (Finset.sum_congr rfl fun q _ => ?_)))
  · refine (root_col R n).trans ?_
    rw [hR]
  · refine (root_row _ q).trans ?_
    rw [band_min C Cn hC]

end Cert.Chamfer.Kernel

end
-- ==== Proof.Final.lean ====
/-
  The call's two result arrays after the run, and the program's result.  The row-minimum array is written back
  once per sweep, at its last point, one band of 512 rows each; the column-minimum array is written back at every
  point, one [1, 1, 2048] block each; both families of blocks tile their arrays.  The host lines after the call
  then turn the two arrays into the tiled form of the chamfer distance.
-/
import proofs.«141072_j2714419331831_2_alg».proof.Proof.Invariant
import proofs.«141072_j2714419331831_2_alg».proof.Proof.Tail
import Idealize.ShloMosaic.Lib.Pipeline.Value
import Idealize.ShloMosaic.Lib.StableHlo.Run

noncomputable section

namespace Cert.Chamfer.Kernel

open Idealize.ShloMosaic Idealize.ShloMosaic.TcCoe Idealize.SL.Sem Idealize.ShloMosaic.ValueIdx
open Idealize.ShloMosaic.Pipeline (Dat)
open Cert.KernelIdeal Cert.KernelIdeal.Gen

variable (m : (ℓ : Loc nD τ sig) → Buf (Elt Ideal) ℓ) (ρ : Dev nD → PrngReg)

/-- The row-minimum array: row `n` holds the least squared distance of point `n` of the first set. -/
def rowArr (A : SA.Idx → EReal) (B : SB.Idx → EReal) : S4096x1.Idx → EReal := fun i => rowMin A B (i 0).val

/-- The column-minimum array: entry `(i, ·, q)` holds the least squared distance of point `q` of the second
    set to band `i` of the first. -/
def colArr (A : SA.Idx → EReal) (B : SB.Idx → EReal) : S8x1x32768.Idx → EReal :=
  fun i => (Finset.range 512).inf fun r => d2 A B (512 * (i 0).val + r) (i 2).val

/-- What the last point of a sweep writes back into the row-minimum array, entry by entry. -/
theorem rowflush_at (c : Dev nD) (t : Fin cfg0.N) (h1 : t.val % 16 = 15) (y : S512x1.Idx) :
    (outsAt0 m c t.val t.isLt).1 y = rowArr (argA m c) (argB m c) (((cfg0.win 2).blk t).view.emb y) := by
  obtain ⟨r, u, rfl⟩ : ∃ (r : Fin 512) (u : Fin 1), y = ix2 r u := ⟨y 0, y 1, eq_ix2 y⟩
  obtain ⟨-, -, -, -, e0, -⟩ := idx_facts t
  rw [rowblock_eq m c t h1 r u]
  unfold rowArr
  refine congrArg (rowMin (argA m c) (argB m c)) ?_
  show 512 * (t.val / 16) + r.val = win0_2.index t (0 : Fin 2) * 512 + 1 * r.val
  rw [e0]; omega

set_option maxRecDepth 65536 in
theorem rowflush_eq (c : Dev nD) (t : Fin cfg0.N) (hf : (cfg0.win 2).flush t = true) :
    (dats m 0 c).flushed 2 t = ((cfg0.win 2).blk t).view.read (Elt Ideal) (rowArr (argA m c) (argB m c)) := by
  have h1 : t.val % 16 = 15 := (flush0_2 t).mp hf
  show (cfg0.win 2).cut (grid0.coords t) ((dats m 0 c).after 2 t) = _
  rw [after0_2]
  funext y
  exact rowflush_at m c t h1 y

/-- What every point writes back into the column-minimum array, entry by entry. -/
theorem colflush_at (c : Dev nD) (t : Fin cfg0.N) (y : S1x1x2048.Idx) :
    (outsAt0 m c t.val t.isLt).2.1 y = colArr (argA m c) (argB m c) (((cfg0.win 3).blk t).view.emb y) := by
  obtain ⟨u, v, l, rfl⟩ : ∃ (u v : Fin 1) (l : Fin 2048), y = ix3 u v l := ⟨y 0, y 1, y 2, eq_ix3 y⟩
  obtain ⟨-, -, -, -, -, -, e0, -, e2⟩ := idx_facts t
  rw [colblock_eq m c t u v l]
  unfold colArr colPart
  have hu := u.isLt
  have a0 : ((((cfg0.win 3).blk t).view.emb (ix3 u v l)) 0).val = t.val / 16 := by
    show win0_3.index t (0 : Fin 3) * 1 + 1 * u.val = t.val / 16
    rw [e0]; omega
  have a2 : ((((cfg0.win 3).blk t).view.emb (ix3 u v l)) 2).val = 2048 * (t.val % 16) + l.val := by
    show win0_3.index t (2 : Fin 3) * 2048 + 1 * l.val = 2048 * (t.val % 16) + l.val
    rw [e2]; omega
  rw [a0, a2]

theorem colflush_eq (c : Dev nD) (t : Fin cfg0.N) :
    (dats m 0 c).flushed 3 t = ((cfg0.win 3).blk t).view.read (Elt Ideal) (colArr (argA m c) (argB m c)) := by
  show (cfg0.win 3).cut (grid0.coords t) ((dats m 0 c).after 3 t) = _
  rw [after0_3]
  funext y
  exact colflush_at m c t y

/-- An index of the row-minimum array is in point `t`'s block iff each coordinate is in the block's range. -/
theorem mem_rowblk (t : Fin cfg0.N) (i : S4096x1.Idx) :
    i ∈ ((cfg0.win 2).blk t).view.set ↔ ∀ a : Fin 2, win0_2.index t a * S512x1.size a ≤ (i a).val ∧ (i a).val < win0_2.index t a * S512x1.size a + S512x1.size a := by
  show i ∈ ((View.whole main_v6_0).slice (win0_2.rect t)).set ↔ _
  rw [View.set_slice_whole, Rect.mem_set_unit]
  exact Iff.rfl

theorem mem_colblk (t : Fin cfg0.N) (i : S8x1x32768.Idx) :
    i ∈ ((cfg0.win 3).blk t).view.set ↔ ∀ a : Fin 3, win0_3.index t a * S1x1x2048.size a ≤ (i a).val ∧ (i a).val < win0_3.index t a * S1x1x2048.size a + S1x1x2048.size a := by
  show i ∈ ((View.whole main_v6_1).slice (win0_3.rect t)).set ↔ _
  rw [View.set_slice_whole, Rect.mem_set_unit]
  exact Iff.rfl

/-- THE ROW-MINIMUM ARRAY after the run. -/
theorem final_row (c : Dev nD) : (dats m 0 c).arrAt 2 cfg0.N = rowArr (argA m c) (argB m c) :=
  (dats m 0 c).arrAt_eq_of_cover 2 (rowArr (argA m c) (argB m c)) (fun t hf => rowflush_eq m c t hf) fun i => by
    have hN : cfg0.N = 128 := N_0
    have h0 : (i 0).val < 4096 := (i 0).isLt
    have h1 : (i 1).val < 1 := (i 1).isLt
    let t : Fin cfg0.N := ⟨16 * ((i 0).val / 512) + 15, by omega⟩
    have ht : t.val = 16 * ((i 0).val / 512) + 15 := rfl
    obtain ⟨-, -, -, -, e0, e1, -⟩ := idx_facts t
    refine ⟨t, (flush0_2 t).mpr (by omega), ?_⟩
    rw [mem_rowblk]
    intro a
    match a with
    | ⟨0, _⟩ => show win0_2.index t (0 : Fin 2) * 512 ≤ (i 0).val ∧ (i 0).val < win0_2.index t (0 : Fin 2) * 512 + 512; rw [e0]; omega
    | ⟨1, _⟩ => show win0_2.index t (1 : Fin 2) * 1 ≤ (i 1).val ∧ (i 1).val < win0_2.index t (1 : Fin 2) * 1 + 1; rw [e1]; omega

/-- THE COLUMN-MINIMUM ARRAY after the run. -/
theorem final_col (c : Dev nD) : (dats m 0 c).arrAt 3 cfg0.N = colArr (argA m c) (argB m c) :=
  (dats m 0 c).arrAt_eq_of_cover 3 (colArr (argA m c) (argB m c)) (fun t _ => colflush_eq m c t) fun i => by
    have hN : cfg0.N = 128 := N_0
    have h0 : (i 0).val < 8 := (i 0).isLt
    have h1 : (i 1).val < 1 := (i 1).isLt
    have h2 : (i 2).val < 32768 := (i 2).isLt
    let t : Fin cfg0.N := ⟨16 * (i 0).val + (i 2).val / 2048, by omega⟩
    have ht : t.val = 16 * (i 0).val + (i 2).val / 2048 := rfl
    obtain ⟨-, -, -, -, -, -, e0, e1, e2⟩ := idx_facts t
    refine ⟨t, flush0_3 t, ?_⟩
    rw [mem_colblk]
    intro a
    match a with
    | ⟨0, _⟩ => show win0_3.index t (0 : Fin 3) * 1 ≤ (i 0).val ∧ (i 0).val < win0_3.index t (0 : Fin 3) * 1 + 1; rw [e0]; omega
    | ⟨1, _⟩ => show win0_3.index t (1 : Fin 3) * 1 ≤ (i 1).val ∧ (i 1).val < win0_3.index t (1 : Fin 3) * 1 + 1; rw [e1]; omega
    | ⟨2, _⟩ => show win0_3.index t (2 : Fin 3) * 2048 ≤ (i 2).val ∧ (i 2).val < win0_3.index t (2 : Fin 3) * 2048 + 2048; rw [e2]; omega

/-- The program's result buffer after the host lines that follow the call. -/
theorem tail_eq (c : Dev nD) :
    Pipeline.afterTail₀ cfgs (dats m) 0 (V0 m) [hostOps1] c main_v16 = fun _ => chamferTiled (argA m c) (argB m c) := by
  have e2 : Pipeline.withArrays (cfgs 0).spec c (V0 m c) (fun w => (dats m 0 c).arrAt w (cfgs 0).N) (Proc.devRef .tc main_v6_0)
      = rowArr (argA m c) (argB m c) :=
    (Pipeline.withArrays_arr spec0 launch0.win.arr_inj c _ _ 2).trans (final_row m c)
  have e3 : Pipeline.withArrays (cfgs 0).spec c (V0 m c) (fun w => (dats m 0 c).arrAt w (cfgs 0).N) (Proc.devRef .tc main_v6_1)
      = colArr (argA m c) (argB m c) :=
    (Pipeline.withArrays_arr spec0 launch0.win.arr_inj c _ _ 3).trans (final_col m c)
  unfold Pipeline.afterTail₀
  show StableHlo.after hostOps1 _ (Proc.devRef .tc main_v16) = _
  after_results
  rw [e2, e3]
  funext j
  exact tailFn_apply (rowArr (argA m c) (argB m c)) (colArr (argA m c) (argB m c)) (rowMin (argA m c) (argB m c))
    (fun i q => (Finset.range 512).inf fun r => d2 (argA m c) (argB m c) (512 * i + r) q) (fun n => rfl) (fun i q => rfl) j

/-- THE KERNEL PROGRAM'S RUN, READ: it ends with its result at the tiled form of the chamfer distance of its
    two argument arrays, the arguments unchanged. -/
theorem run : θ_run defs (onTc (τ := τ) (main (F := Ideal))) ⟨m, fun _ => 0, ρ⟩ fun r => ∀ c : Dev nD,
      r.2.mem ((c.tc : Thread nD τ).loc main_v16) = (fun _ => chamferTiled (argA m c) (argB m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v16 (Pipeline.mem_restRefs_of main_v16 (by decide) (by decide))).trans (tail_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Chamfer.Kernel

end
-- ==== Proof.RefValue.lean ====
/-
  The reference program's result, read at the ideal instance, is the expanded-form chamfer distance of the two
  argument arrays.  Each lemma reads one stage of the program at an index built from its coordinates: the two
  point sets (the second read back to front), their squared norms, the matrix of inner products, the expanded
  squared distances, their roots, the row and column minima, the two sums, and their total.
-/
import proofs.«141072_j2714419331831_2_alg».proof.Proof.Spec
import proofs.«141072_j2714419331831_2_alg».proof.Proof.Consts
import proofs.«141072_j2714419331831_2_alg».proof.Proof.Gen.ReferenceIdeal.Read
import Idealize.ShloMosaic.PureOps.Reduce
import Idealize.ShloMosaic.PureOps.Ideal.Laws
import Idealize.ShloMosaic.Lib.ValueIdx

noncomputable section

namespace Cert.Chamfer.Ref

open Cert.ReferenceIdeal Cert.ReferenceIdeal.Gen Cert.ReferenceIdeal.Read Idealize.ShloMosaic Idealize.ShloMosaic.ValueIdx

variable [Cert.ReferenceIdeal.Facts]

/-- The first argument array. -/
abbrev ArrA : Type := (⟨S2x4096x2, .f32⟩ : BufTy).Contents (Elt Ideal)
/-- The second argument array. -/
abbrev ArrB : Type := (⟨S2x32768x2, .f32⟩ : BufTy).Contents (Elt Ideal)

/-! ## The two point sets -/

/-- Row `n`, coordinate `k` of the first point set is entry `(0, n, k)` of the first array. -/
theorem v1_eq (A : ArrA) (n : Fin 4096) (k : Fin 2) :
    val_main_v1 (F := Ideal) A (ix2 n k) = pt A n.val k.val := by
  have hi : idx_main_v0 (idx_main_v1 (ix2 n k)) = ix3 (0 : Fin 2) n k := funext fun a => by
    match a with
    | ⟨0, _⟩ => rfl
    | ⟨1, _⟩ => exact Fin.ext (by have := n.isLt; have := k.isLt; show (n.val * 2 + k.val) / 2 % 4096 = n.val; omega)
    | ⟨2, _⟩ => exact Fin.ext (by have := n.isLt; have := k.isLt; show (n.val * 2 + k.val) % 2 = k.val; omega)
  rw [val_main_v1_apply, val_main_v0_apply, hi]
  unfold pt
  congr 1
  funext a
  match a with
  | ⟨0, _⟩ => rfl
  | ⟨1, _⟩ => exact Fin.ext (Nat.mod_eq_of_lt n.isLt).symm
  | ⟨2, _⟩ => exact Fin.ext (Nat.mod_eq_of_lt k.isLt).symm

/-- Row `m`, coordinate `k` of the second point set before it is turned round is entry `(1, m, k)` of the second array. -/
theorem v3_eq (B : ArrB) (m : Fin 32768) (k : Fin 2) :
    val_main_v3 (F := Ideal) B (ix2 m k) = B (ix3 (1 : Fin 2) m k) := by
  have hi : idx_main_v2 (idx_main_v3 (ix2 m k)) = ix3 (1 : Fin 2) m k := funext fun a => by
    match a with
    | ⟨0, _⟩ => rfl
    | ⟨1, _⟩ => exact Fin.ext (by have := m.isLt; have := k.isLt; show (m.val * 2 + k.val) / 2 % 32768 = m.val; omega)
    | ⟨2, _⟩ => exact Fin.ext (by have := m.isLt; have := k.isLt; show (m.val * 2 + k.val) % 2 = k.val; omega)
  rw [val_main_v3_apply, val_main_v2_apply, hi]

/-- A reversal along the first axis of a rank-2 array reads row `rev m`. -/
theorem reverse0_apply {α : Type} {n0 n1 : Nat} (x : (⟨2, ![n0, n1]⟩ : Shape).Idx → α) (m : Fin n0) (k : Fin n1) :
    Host.reverse (s := ⟨2, ![n0, n1]⟩) [0] x (ix2 m k) = x (ix2 m.rev k) := by
  unfold Host.reverse
  congr 1
  funext a
  match a with
  | ⟨0, _⟩ => rfl
  | ⟨1, _⟩ => rfl

/-- Row `m`, coordinate `k` of the second point set: the rows of slab 1 of the second array taken last to first. -/
theorem v4_eq (B : ArrB) (m : Fin 32768) (k : Fin 2) :
    val_main_v4 (F := Ideal) B (ix2 m k) = sk B m.val k.val := by
  unfold val_main_v4
  rw [reverse0_apply, v3_eq]
  unfold sk
  congr 1
  funext a
  match a with
  | ⟨0, _⟩ => rfl
  | ⟨1, _⟩ => exact Fin.ext (by have := m.isLt; show 32768 - (m.val + 1) = 32767 - m.val % 32768; omega)
  | ⟨2, _⟩ => exact Fin.ext (Nat.mod_eq_of_lt k.isLt).symm

/-! ## Squared norms, inner products, expanded squared distances and their roots -/

/-- The squared norm of point `n` of the first set, summed from zero. -/
theorem v6_eq (A : ArrA) (n : Fin 4096) :
    val_main_v6 (F := Ideal) A (ix1 n) = 0 + (pt A n.val 0 * pt A n.val 0 + pt A n.val 1 * pt A n.val 1) := by
  have hi : ∀ k : Fin 2, idx_main_v6 (ix1 n) k = ix2 n k := fun k => funext fun a => by
    match a with
    | ⟨0, _⟩ => rfl
    | ⟨1, _⟩ => rfl
  rw [val_main_v6_apply, val_main_cst_apply, Fin.sum_univ_two, val_main_v5_apply, val_main_v5_apply, hi, hi,
    v1_eq, v1_eq]
  simp only [Ideal.ofBits_def, Ideal.mulf_def, zeroW]
  rfl

/-- The squared norm of point `m` of the second set, summed from zero. -/
theorem v9_eq (B : ArrB) (m : Fin 32768) :
    val_main_v9 (F := Ideal) B (ix1 m) = 0 + (sk B m.val 0 * sk B m.val 0 + sk B m.val 1 * sk B m.val 1) := by
  have hi : ∀ k : Fin 2, idx_main_v9 (ix1 m) k = ix2 m k := fun k => funext fun a => by
    match a with
    | ⟨0, _⟩ => rfl
    | ⟨1, _⟩ => rfl
  rw [val_main_v9_apply, val_main_cst_0_apply, Fin.sum_univ_two, val_main_v8_apply, val_main_v8_apply, hi, hi,
    v4_eq, v4_eq]
  simp only [Ideal.ofBits_def, Ideal.mulf_def, zeroW]
  rfl

/-- The inner product of point `n` of the first set with point `m` of the second. -/
theorem v15_eq (A : ArrA) (B : ArrB) (n : Fin 4096) (m : Fin 32768) :
    val_main_v15 (F := Ideal) A B (ix2 n m) = pt A n.val 0 * sk B m.val 0 + pt A n.val 1 * sk B m.val 1 := by
  have hl : ∀ k : Fin 2, lidx_main_v15 (ix2 n m) k = ix2 n k := fun k => funext fun a => by
    match a with
    | ⟨0, _⟩ => rfl
    | ⟨1, _⟩ => rfl
  have hr : ∀ k : Fin 2, idx_main_v14 (ridx_main_v15 (ix2 n m) k) = ix2 m k := fun k => funext fun a => by
    match a with
    | ⟨0, _⟩ => rfl
    | ⟨1, _⟩ => rfl
  rw [val_main_v15_apply, Fin.sum_univ_two, val_main_v14_apply, val_main_v14_apply, hl, hl, hr, hr,
    v1_eq, v1_eq, v4_eq, v4_eq]
  rfl

/-- The squared distance of point `n` of the first set from point `m` of the second, in expanded form. -/
theorem v18_eq (A : ArrA) (B : ArrB) (n : Fin 4096) (m : Fin 32768) :
    val_main_v18 (F := Ideal) A B (ix2 n m) = d2x A B n.val m.val := by
  have h6 : idx_main_v7 (idx_main_v11 (ix2 n m)) = ix1 n := funext fun a => by
    match a with
    | ⟨0, _⟩ => rfl
  have h9 : idx_main_v10 (idx_main_v12 (ix2 n m)) = ix1 m := funext fun a => by
    match a with
    | ⟨0, _⟩ => rfl
  rw [val_main_v18_apply, val_main_v13_apply, val_main_v17_apply, val_main_v11_apply, val_main_v7_apply,
    val_main_v12_apply, val_main_v10_apply, val_main_v16_apply, val_main_cst_1_apply, h6, h9, v6_eq, v9_eq, v15_eq]
  simp only [Ideal.ofBits_def, Ideal.mulf_def, Ideal.addf_def, Ideal.subf_def, twoW]
  rfl

/-- The rooted expanded squared distance. -/
theorem v21_eq (A : ArrA) (B : ArrB) (n : Fin 4096) (m : Fin 32768) :
    val_main_v21 (F := Ideal) A B (ix2 n m) = root (d2x A B n.val m.val) := by
  rw [val_main_v21_apply, val_main_v20_apply, val_main_v19_apply, val_main_cst_2_apply, v18_eq]
  simp only [Ideal.ofBits_def, Ideal.maximumf_def, Ideal.hostUnary_sqrt_def]
  rfl

/-! ## Minima along a row and along a column -/

/-- A fold of `min` from the top element over `Fin K`, of a function of the value, is the infimum over `range K`. -/
theorem fold_min_range (K : ℕ) (f : ℕ → EReal) :
    (Finset.univ : Finset (Fin K)).fold min ⊤ (fun k => f k.val) = (Finset.range K).inf f := by
  have hr : Finset.range K = (Finset.univ : Finset (Fin K)).map Fin.valEmbedding := by
    ext a
    simp
  rw [hr, Finset.inf_map]
  rfl

/-- The least rooted distance from point `n` of the first set to the second set. -/
theorem v22_eq (A : ArrA) (B : ArrB) (n : Fin 4096) :
    val_main_v22 (F := Ideal) A B (ix1 n) = (Finset.range 32768).inf fun m => root (d2x A B n.val m) := by
  have hR : Shape.Reduces S4096x32768 [1] S4096 := by decide
  have hf : (val_main_v21 (F := Ideal) A B ∘ hR.lift (ix1 n)) = fun k : Fin 32768 => root (d2x A B n.val k.val) := by
    refine funext fun (k : Fin 32768) => ?_
    have hk : hR.lift (ix1 n) k = ix2 n k := funext fun a => by
      match a with
      | ⟨0, _⟩ => rfl
      | ⟨1, _⟩ => rfl
    show val_main_v21 (F := Ideal) A B (hR.lift (ix1 n) k) = _
    rw [hk, v21_eq]
  unfold val_main_v22
  rw [Host.reduce_eq_fold_single FloatOps.minimumf _ _ reducesTo_S4096x32768_S4096_d1 hR h_S_ (ix1 n), hf,
    val_main_cst_3_apply, Ideal.ofBits_def, infW]
  exact fold_min_range 32768 fun m => root (d2x A B n.val m)

/-- The least rooted distance from point `m` of the second set to the first set. -/
theorem v24_eq (A : ArrA) (B : ArrB) (m : Fin 32768) :
    val_main_v24 (F := Ideal) A B (ix1 m) = (Finset.range 4096).inf fun n => root (d2x A B n m.val) := by
  have hR : Shape.Reduces S4096x32768 [0] S32768 := by decide
  have hf : (val_main_v21 (F := Ideal) A B ∘ hR.lift (ix1 m)) = fun k : Fin 4096 => root (d2x A B k.val m.val) := by
    refine funext fun (k : Fin 4096) => ?_
    have hk : hR.lift (ix1 m) k = ix2 k m := funext fun a => by
      match a with
      | ⟨0, _⟩ => rfl
      | ⟨1, _⟩ => rfl
    show val_main_v21 (F := Ideal) A B (hR.lift (ix1 m) k) = _
    rw [hk, v21_eq]
  unfold val_main_v24
  rw [Host.reduce_eq_fold_single FloatOps.minimumf _ _ reducesTo_S4096x32768_S32768_d0 hR h_S_ (ix1 m), hf,
    val_main_cst_5_apply, Ideal.ofBits_def, infW]
  exact fold_min_range 4096 fun n => root (d2x A B n m.val)

/-! ## The two sums and their total -/

/-- A rank-1 index set is its one coordinate range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {n : Nat} (f : (⟨1, ![n]⟩ : Shape).Idx → EReal) : ∑ i, f i = ∑ a : Fin n, f (ix1 a) := by
  rw [← Equiv.sum_comp (idxEquiv1 (n := n)).symm f]
  rfl

/-- The sum over the first set of the least rooted distances, from zero. -/
theorem v23_eq (A : ArrA) (B : ArrB) (i : S_.Idx) :
    val_main_v23 (F := Ideal) A B i
      = 0 + ∑ n : Fin 4096, (Finset.range 32768).inf fun m => root (d2x A B n.val m) := by
  rw [val_main_v23_apply, val_main_cst_4_apply, Ideal.ofBits_def, zeroW, sum_idx1]
  exact congrArg (0 + ·) (Finset.sum_congr rfl fun n _ => v22_eq A B n)

/-- The sum over the second set of the least rooted distances, from zero. -/
theorem v25_eq (A : ArrA) (B : ArrB) (i : S_.Idx) :
    val_main_v25 (F := Ideal) A B i
      = 0 + ∑ m : Fin 32768, (Finset.range 4096).inf fun n => root (d2x A B n m.val) := by
  rw [val_main_v25_apply, val_main_cst_6_apply, Ideal.ofBits_def, zeroW, sum_idx1]
  exact congrArg (0 + ·) (Finset.sum_congr rfl fun m _ => v24_eq A B m)

/-- The reference program's result is the expanded-form chamfer distance of its two arguments, at its one index. -/
theorem reference_value (A : (⟨Cert.ReferenceIdeal.S2x4096x2, .f32⟩ : BufTy).Contents (Elt Ideal))
    (B : (⟨Cert.ReferenceIdeal.S2x32768x2, .f32⟩ : BufTy).Contents (Elt Ideal)) :
    Cert.ReferenceIdeal.Read.val_main_v26 (F := Ideal) A B = fun _ => Cert.Chamfer.chamferExpanded A B := by
  funext i
  rw [val_main_v26_apply, v23_eq, v25_eq, Ideal.addf_def]
  rfl

end Cert.Chamfer.Ref

end
-- ==== Proof.Finite.lean ====
/-
  The precondition says: every entry of either argument array has absolute value strictly below plus
  infinity.  On the extended reals the absolute value is `max x (-x)`, which is `⊤` at both `⊥` and `⊤`;
  so an entry that passes the comparison is neither, hence a real number.  The conjunction over all entries
  is a fold by `and` from 1, and a fold that comes out 1 met only 1s.
-/
import proofs.«141072_j2714419331831_2_alg».proof.Proof.Spec
import proofs.«141072_j2714419331831_2_alg».proof.Proof.Consts
import proofs.«141072_j2714419331831_2_alg».proof.Pre_finite_inputs
import proofs.«141072_j2714419331831_2_alg».proof.Proof.Gen.Pre_finite_inputs
import Idealize.ShloMosaic.Lib.ReduceAll
import Idealize.ShloMosaic.PureOps.Ideal.Laws

noncomputable section

namespace Cert.Chamfer

open Idealize.ShloMosaic Idealize.ShloMosaic.ValueIdx

/-- An extended real whose absolute value `max x (-x)` lies strictly below `⊤` is a real number:
    at `⊥` and at `⊤` that maximum is `⊤`. -/
theorem real_of_abs_lt_top (x : EReal) (h : max x (-x) < ⊤) : ∃ r : ℝ, x = (r : EReal) := by
  induction x using EReal.rec with
  | bot => simp at h
  | coe r => exact ⟨r, rfl⟩
  | top => simp at h

/-- A one-bit word made from a truth value is 1 only when that value is true. -/
theorem ofBool_one {b : Bool} (h : BitVec.ofBool b = 1#1) : b = true := by
  cases b
  · exact absurd h (by decide)
  · rfl

/-- The shape with no axes has one index. -/
instance subsingleton_scalar_idx : Subsingleton Cert.Pre_finite_inputs.S_.Idx :=
  ⟨fun _ _ => funext fun d => d.elim0⟩

/-- One `all(|x| < +∞)`: if the fold by `and` of the entrywise comparisons is 1, every entry is real. -/
theorem allReal_of_all_lt_inf {S : Shape} {axes : List (Fin S.rank)} (X : S.Idx → EReal)
    (hb : Cert.Pre_finite_inputs.S_.BroadcastsInDim S (![] : Fin 0 → Fin S.rank))
    (hr : S.ReducesTo axes Cert.Pre_finite_inputs.S_) (hu : 0 < Cert.Pre_finite_inputs.S_.numel)
    (e : Host.reduce IntOp.andi
          (cmpf (F := Ideal) (φ := .f32) CmpFPredicate.olt (Host.absf (F := Ideal) (φ := .f32) X)
            (broadcastInDim S ![] hb (constant (F := Ideal) Cert.Pre_finite_inputs.S_ FTy.f32 0x7F800000#32)))
          (constantI Cert.Pre_finite_inputs.S_ 1 1#1) hr hu ix0 = 1#1) : AllReal X := by
  intro i
  have hi := Host.reduce_andi_all _ _ hr hu ix0 e i
  -- entry `i` of the comparison array is the comparison of `|X i|` with the word of `+∞`
  have hc : Ideal.cmp .olt (max (X i) (-(X i))) (Ideal.ofBits .f32 0x7F800000#32) = 1#1 := hi
  rw [infW] at hc
  have hd : BitVec.ofBool (decide (max (X i) (-(X i)) < ⊤)) = 1#1 := hc
  exact real_of_abs_lt_top _ (of_decide_eq_true (ofBool_one hd))

/-- The precondition `finite_inputs` makes every entry of both argument arrays a real number. -/
theorem allReal_of_pre [Cert.Pre_finite_inputs.Facts] (A : FVec Ideal Cert.Pre_finite_inputs.S2x4096x2 .f32)
    (B : FVec Ideal Cert.Pre_finite_inputs.S2x32768x2 .f32)
    (h : Cert.Pre_finite_inputs.fn (F := Ideal) A B = fun _ => 1#1) : AllReal A ∧ AllReal B := by
  have h0 := congrFun h ValueIdx.ix0
  dsimp only [Cert.Pre_finite_inputs.fn] at h0
  -- the outer `and` of the two folds is 1, so each fold is 1
  obtain ⟨hA, hB⟩ := IntOp.andi_eq_one.1 h0
  exact ⟨allReal_of_all_lt_inf A _ _ _ hA, allReal_of_all_lt_inf B _ _ _ hB⟩

end Cert.Chamfer

end
-- ==== Proof.lean ====
/-
  The kernel computes the chamfer distance between two planar point sets — the sum over the first set of each
  point's distance to the nearest point of the second, plus the same with the roles exchanged — from squared
  distances written with differences, swept in 512 × 2048 tiles with the minima taken before the root; the
  reference computes it from squared distances written by the expansion |a|² + |b|² − 2 a·b, with the root taken
  first.  For arrays of real numbers the two forms of the squared distance agree, `x ↦ √(max x ε)` is monotone
  and so commutes with minima, and a minimum over a product of index ranges may be taken in either order:
  both programs end at one extended real, `Cert.Chamfer.chamfer` of the two argument arrays.
-/
import proofs.«141072_j2714419331831_2_alg».proof.Defs
import proofs.«141072_j2714419331831_2_alg».proof.Proof.Gen.Kernel
import proofs.«141072_j2714419331831_2_alg».proof.Proof.Gen.Kernel.Skeleton
import proofs.«141072_j2714419331831_2_alg».proof.Proof.Gen.Kernel.Launch
import proofs.«141072_j2714419331831_2_alg».proof.Proof.Gen.Kernel.Points
import proofs.«141072_j2714419331831_2_alg».proof.Proof.Gen.Kernel.Frame
import proofs.«141072_j2714419331831_2_alg».proof.Proof.Gen.KernelIdeal
import proofs.«141072_j2714419331831_2_alg».proof.Proof.Gen.KernelIdeal.Skeleton
import proofs.«141072_j2714419331831_2_alg».proof.Proof.Gen.KernelIdeal.Launch
import proofs.«141072_j2714419331831_2_alg».proof.Proof.Gen.KernelIdeal.Points
import proofs.«141072_j2714419331831_2_alg».proof.Proof.Gen.KernelIdeal.Frame
import proofs.«141072_j2714419331831_2_alg».proof.Proof.Gen.ReferenceIdeal
import proofs.«141072_j2714419331831_2_alg».proof.Proof.Gen.Pre_finite_inputs
import proofs.«141072_j2714419331831_2_alg».proof.Proof.Gen.ReferenceIdeal.Run
import proofs.«141072_j2714419331831_2_alg».proof.Proof.Gen.ReferenceIdeal.Read
import proofs.«141072_j2714419331831_2_alg».proof.Proof.Final
import proofs.«141072_j2714419331831_2_alg».proof.Proof.RefValue
import proofs.«141072_j2714419331831_2_alg».proof.Proof.Finite
import proofs.«141072_j2714419331831_2_alg».proof.Proof.Algebra
import Idealize.ShloMosaic.Adequacy
import Idealize.ShloMosaic.Init

noncomputable section

namespace Cert.Proof

open Idealize.ShloMosaic Idealize.SL.Sem Cert.Kernel

theorem frame_k : Cert.frame_Kernel := fun m ρ _ => Cert.Kernel.Gen.frame m ρ

theorem frame_ki : Cert.frame_KernelIdeal := fun m ρ _ => Cert.KernelIdeal.Gen.frame m ρ

/-- The reference's frame: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end at the chamfer distance of the argument arrays: the kernel at its tiled form, the reference
    at its expanded form, and for arrays of real numbers both forms are the chamfer distance. -/
theorem algebraic : Cert.algebraic_KernelIdeal_ReferenceIdeal := by
  intro m ρ m' ρ' hpre hagree
  refine ⟨fun c => fun _ => Cert.Chamfer.chamfer (Cert.Chamfer.Kernel.argA m c) (Cert.Chamfer.Kernel.argB m c), ?_, ?_⟩
  · refine (θ_run Cert.KernelIdeal.defs _ _).mono (fun _ h c => ⟨(h c).1.trans ?_, (h c).2⟩) (Cert.Chamfer.Kernel.run m ρ)
    rw [Cert.Chamfer.chamferTiled_eq]
  · refine (θ_run Cert.ReferenceIdeal.defs _ _).mono (fun _ h c => ⟨(h c).1.trans ?_, (h c).2⟩)
      (Cert.ReferenceIdeal.Value.run (F := Ideal) m' ρ')
    obtain ⟨hA, hB⟩ := Cert.Chamfer.allReal_of_pre _ _ (hpre c)
    rw [Cert.ReferenceIdeal.Read.val_main_v26_eq, Cert.Chamfer.Ref.reference_value, (hagree c).1, (hagree c).2,
      Cert.Chamfer.chamferExpanded_eq hA hB]
    rfl

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
